-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S400 : Shape := ⟨1, ![400]⟩
abbrev S400x1 : Shape := ⟨2, ![400, 1]⟩

abbrev nBuf : Space → Nat
  | .hbm => 10
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .hbm, ⟨9, _⟩ => ⟨S10000x64, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | .local _ .vmem, ⟨9, _⟩ => ⟨S400x64, .f32⟩
  | .local _ .vmem, ⟨10, _⟩ => ⟨S400x64, .f32⟩
  | .local _ .vmem, ⟨11, _⟩ => ⟨S10000x128, .bf16⟩
  | .local _ .vmem, ⟨12, _⟩ => ⟨S10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c400_i32 : BitVec 32 := 400#32
  let v22 : BitVec 32 := Scalar.muli arg0 c400_i32
  let v23 : Index := Scalar.indexCast v22
  let c0_13 : Index := 0#32
  ![v23.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c25_i32 : BitVec 32 := 25#32
  let v0 : BitVec 1 := Scalar.cmpi .slt arg0 c25_i32
  let c25_i32_0 : BitVec 32 := 25#32
  let v1 : BitVec 32 := Scalar.subi arg0 c25_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c25_i32 : BitVec 32 := 25#32
  let v0 : BitVec 1 := Scalar.cmpi .slt arg0 c25_i32
  let c25_i32_0 : BitVec 32 := 25#32
  let v1 : BitVec 32 := Scalar.subi arg0 c25_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  h_S400x64 : 0 < S400x64.numel
  shapeCasts_S400x64_S400x64 : S400x64.ShapeCasts S400x64
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  k0_off1_packedbf16 : ∀ i : grid0.Coords, ∀ (k0_h2 : k0_cond2 i = 1#1), (Rect.unit (s := S10000x64) (k0_off1 i) S400x64.size (k0_off1_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x64.size a ≤ S10000x64.size a
  hwx0_7 : ∀ i : grid0.Coords, EltTy.bits .f32 = 32 ∨ (Rect.block (s := S10000x64) S400x64.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S400x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond3 i == 1#1) | 7 => fun i => !(k0_cond3 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 48
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | .hbm, ⟨34, _⟩ => ⟨S_, .f32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S10000x64, .f32⟩
  | .hbm, ⟨41, _⟩ => ⟨S10000x64, .f32⟩
  | .hbm, ⟨42, _⟩ => ⟨S10000x64, .f32⟩
  | .hbm, ⟨43, _⟩ => ⟨S_, .f32⟩
  | .hbm, ⟨44, _⟩ => ⟨S10000, .f32⟩
  | .hbm, ⟨45, _⟩ => ⟨S10000x1, .f32⟩
  | .hbm, ⟨46, _⟩ => ⟨S10000x64, .f32⟩
  | .hbm, ⟨47, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩
abbrev main_cst_0 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Kernel.Phases.lean ====
import proofs.«106749_g48206712930318_cont_8to1_c_213_4_alg».proof.Proof.Gen.Kernel.Frame
import proofs.«106749_g48206712930318_cont_8to1_c_213_4_alg».proof.Proof.Gen.Kernel.Skeleton
import Idealize.ShloMosaic.Lib.Pipeline.Value
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

/-! The grid has fifty points. Point 0 computes the first layer's support `x · W1` into the first
    scratch; points 0–24 each compute one block of 400 rows of the second layer's support
    `relu(adj_blk · s1 + b1) · W2` into rows `400 t … 400 t + 399` of the second scratch; points 25–49
    each compute one block of 400 rows of the logits `adj_blk · s2 + b2` and of their softmax and
    log-softmax. Here: the three branch conditions of the body as predicates of the point, in closed form. -/

variable {F : FTy → Type} [FloatOps F]

/-- The body's first branch is taken: the point is the first one. -/
abbrev atFirst (i : grid0.Coords) : Prop := (Scalar.cmpi .ne (Scalar.extui (Scalar.cmpi .eq (BitVec.ofNat 32 (i 0).val) 0#32)) 0#32) = 1#1
theorem atFirst_iff : ∀ t : Fin cfg0.N, atFirst (grid0.coords t) ↔ t.val = 0 :=
  (by decide +kernel : ∀ t : Fin grid0.N, atFirst (grid0.coords t) ↔ t.val = 0)

/-- The body's second branch is taken: the point is in the first half of the grid. -/
abbrev inLayer1 (i : grid0.Coords) : Prop := k0_cond2 i = 1#1
theorem inLayer1_iff : ∀ t : Fin cfg0.N, inLayer1 (grid0.coords t) ↔ t.val < 25 :=
  (by decide +kernel : ∀ t : Fin grid0.N, inLayer1 (grid0.coords t) ↔ t.val < 25)

/-- The body's third branch is taken: the point is in the second half of the grid. -/
abbrev inLayer2 (i : grid0.Coords) : Prop := k0_cond3 i = 1#1
theorem inLayer2_iff : ∀ t : Fin cfg0.N, inLayer2 (grid0.coords t) ↔ 25 ≤ t.val :=
  (by decide +kernel : ∀ t : Fin grid0.N, inLayer2 (grid0.coords t) ↔ 25 ≤ t.val)

/-- The slice of the second scratch a first-half point writes starts at row `400 t`. -/
theorem sliceOffset_eq : ∀ t : Fin cfg0.N, t.val < 25 → k0_off1 (grid0.coords t) = ![400 * t.val, 0] :=
  (by decide +kernel : ∀ t : Fin grid0.N, t.val < 25 → k0_off1 (grid0.coords t) = ![400 * t.val, 0])

/-- The zero offsets of a rank-two rectangle, as the constant function. -/
theorem zeros2 : (![0, 0] : Fin 2 → ℕ) = fun _ => 0 := by funext a; fin_cases a <;> rfl

/-- One store through the whole-shape rectangle at zero offsets leaves its payload, whatever was there. -/
theorem read_whole_write {sig : RefSig} {κ : Kind} {sp : Space} {S : Shape} {e : EltTy} {Val : EltTy → Type}
    (v : View sig κ sp S e) (f : v.ty.Contents Val) {off : Fin S.rank → ℕ} (hz : off = fun _ => 0)
    (inb : ∀ a, off a + S.size a ≤ S.size a) (w : S.Idx → Val e) :
    v.read Val (v.writes Val f [(⟨Rect.unit off S.size inb, w⟩ : View.Piece Val S e)]) = w :=
  funext fun y => View.read_writes_cons_unit_of_mem v f inb w [] y y hz (fun a => (Nat.zero_add _).symm)

end Cert.Kernel.Body

end
-- ==== Proof.Kernel.RunFirst.lean ====
import proofs.«106749_g48206712930318_cont_8to1_c_213_4_alg».proof.Proof.Kernel.Phases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The first point: the body computes the first layer's support `x · W1` and stores it over the whole first
    scratch, then, as at every first-half point, stores one block of 400 rows into the second scratch. The lists
    are what it wrote into the two scratches. -/
noncomputable def runFirst (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : atFirst i) (hc1 : inLayer1 i) (hc2 : ¬inLayer2 i)
    (x0 : Vec F S10000x128 .f32) (x1 : Vec F S400x10000 .f32) (x2 : Vec F S128x128 .f32) (x3 : Vec F S1x128 .f32) (x4 : Vec F S128x64 .f32) (x5 : Vec F S1x64 .f32) (y6 y7 : Vec F S400x64 .f32) (xs1 : Vec F S10000x64 .bf16) :
    { L : List (View.Piece (Elt F) S10000x128 .bf16) × List (View.Piece (Elt F) S10000x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ (∃ d, owns (c : Thread nD τ) arg9 fullShare d) ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ (∃ f, arg9.view.loc (c : Thread nD τ) ↦[arg9.view.set]{fullShare} arg9.view.writes (Elt F) f L.1) ∗ (arg10.view.loc (c : Thread nD τ) ↦[arg10.view.set]{fullShare} arg10.view.writes (Elt F) (harg10.unread xs1) L.2)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K } := by
  refine ⟨(?_, ?_), fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexact HS1

/-- What the first point wrote: the whole first scratch at `x · W1` of the two resident blocks, and the point's slice
    of the second scratch at the block of the second support computed from that first support just stored. -/
theorem runFirst_wrote (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : atFirst i) (hc1 : inLayer1 i) (hc2 : ¬inLayer2 i)
    (x0 : Vec F S10000x128 .f32) (x1 : Vec F S400x10000 .f32) (x2 : Vec F S128x128 .f32) (x3 : Vec F S1x128 .f32) (x4 : Vec F S128x64 .f32) (x5 : Vec F S1x64 .f32) (y6 y7 : Vec F S400x64 .f32) (xs1 : Vec F S10000x64 .bf16) :
    (runFirst c i arg1 harg1 arg2 harg2 arg3 harg3 arg4 harg4 arg5 harg5 arg6 harg6 arg7 harg7 arg8 harg8 arg9 harg9 arg10 harg10 hc0 hc1 hc2 x0 x1 x2 x3 x4 x5 y6 y7 xs1).1
      = ([⟨Rect.unit ![0, 0] S10000x128.size inb_S10000x128_S10000x128_0_0, k0_pay1 x0 x2⟩],
         [⟨Rect.unit (k0_off1 i) S400x64.size (k0_off1_inb i hc1), k0_pay2 x1 (k0_pay1 x0 x2) x3 x4⟩]) := by
  unfold runFirst; dsimp only; sl_unfold_run_names
  simp only [View.readAt_eq_ld, Memref.IsWhole.read_unread, View.ld_unit_zero (S := S10000x128) zeros2, View.ld_unit_zero (S := S400x10000) zeros2, View.ld_unit_zero (S := S128x128) zeros2, View.ld_unit_zero (S := S1x128) zeros2, View.ld_unit_zero (S := S128x64) zeros2, View.ld_unit_zero (S := S1x64) zeros2, View.ld_unit_zero (S := S10000x64) zeros2, View.ld_unit_zero (S := S400x64) zeros2, View.readCov_unit_zero (S := S10000x128) _ zeros2]

/-- The same run with what it wrote spelt out. -/
theorem runFirst_triple (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : atFirst i) (hc1 : inLayer1 i) (hc2 : ¬inLayer2 i)
    (x0 : Vec F S10000x128 .f32) (x1 : Vec F S400x10000 .f32) (x2 : Vec F S128x128 .f32) (x3 : Vec F S1x128 .f32) (x4 : Vec F S128x64 .f32) (x5 : Vec F S1x64 .f32) (y6 y7 : Vec F S400x64 .f32) (xs1 : Vec F S10000x64 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ (∃ d, owns (c : Thread nD τ) arg9 fullShare d) ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ (∃ f, arg9.view.loc (c : Thread nD τ) ↦[arg9.view.set]{fullShare} arg9.view.writes (Elt F) f [⟨Rect.unit ![0, 0] S10000x128.size inb_S10000x128_S10000x128_0_0, k0_pay1 x0 x2⟩]) ∗ (arg10.view.loc (c : Thread nD τ) ↦[arg10.view.set]{fullShare} arg10.view.writes (Elt F) (harg10.unread xs1) [⟨Rect.unit (k0_off1 i) S400x64.size (k0_off1_inb i hc1), k0_pay2 x1 (k0_pay1 x0 x2) x3 x4⟩])) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  have h := (runFirst c i arg1 harg1 arg2 harg2 arg3 harg3 arg4 harg4 arg5 harg5 arg6 harg6 arg7 harg7 arg8 harg8 arg9 harg9 arg10 harg10 hc0 hc1 hc2 x0 x1 x2 x3 x4 x5 y6 y7 xs1).2 E K
  rw [runFirst_wrote] at h
  exact h

end Cert.Kernel.Body

end
-- ==== Proof.Kernel.RunLayer1.lean ====
import proofs.«106749_g48206712930318_cont_8to1_c_213_4_alg».proof.Proof.Kernel.RunFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A point of the first half other than the first: the body reads the adjacency block, the first scratch (the
    first layer's support), the bias row and `W2`, and stores one block of 400 rows into the second scratch at
    the point's row offset; everything else it leaves as it found it. The list is what it wrote there. -/
noncomputable def runLayer1 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : ¬atFirst i) (hc1 : inLayer1 i) (hc2 : ¬inLayer2 i)
    (x0 : Vec F S10000x128 .f32) (x1 : Vec F S400x10000 .f32) (x2 : Vec F S128x128 .f32) (x3 : Vec F S1x128 .f32) (x4 : Vec F S128x64 .f32) (x5 : Vec F S1x64 .f32) (y6 y7 : Vec F S400x64 .f32) (xs0 : Vec F S10000x128 .bf16) (xs1 : Vec F S10000x64 .bf16) :
    { L1 : List (View.Piece (Elt F) S10000x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare xs0 ∗ (arg10.view.loc (c : Thread nD τ) ↦[arg10.view.set]{fullShare} arg10.view.writes (Elt F) (harg10.unread xs1) L1)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    iexact HS1

/-- What a later first-half point wrote: its slice of the second scratch, at the block of the second support computed
    from the adjacency block, the first scratch's contents, the bias row and `W2`. -/
theorem runLayer1_wrote (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : ¬atFirst i) (hc1 : inLayer1 i) (hc2 : ¬inLayer2 i)
    (x0 : Vec F S10000x128 .f32) (x1 : Vec F S400x10000 .f32) (x2 : Vec F S128x128 .f32) (x3 : Vec F S1x128 .f32) (x4 : Vec F S128x64 .f32) (x5 : Vec F S1x64 .f32) (y6 y7 : Vec F S400x64 .f32) (xs0 : Vec F S10000x128 .bf16) (xs1 : Vec F S10000x64 .bf16) :
    (runLayer1 c i arg1 harg1 arg2 harg2 arg3 harg3 arg4 harg4 arg5 harg5 arg6 harg6 arg7 harg7 arg8 harg8 arg9 harg9 arg10 harg10 hc0 hc1 hc2 x0 x1 x2 x3 x4 x5 y6 y7 xs0 xs1).1
      = [⟨Rect.unit (k0_off1 i) S400x64.size (k0_off1_inb i hc1), k0_pay2 x1 xs0 x3 x4⟩] := by
  unfold runLayer1; dsimp only
  simp only [View.readAt_eq_ld, Memref.IsWhole.read_unread, View.ld_unit_zero (S := S10000x128) zeros2, View.ld_unit_zero (S := S400x10000) zeros2, View.ld_unit_zero (S := S128x128) zeros2, View.ld_unit_zero (S := S1x128) zeros2, View.ld_unit_zero (S := S128x64) zeros2, View.ld_unit_zero (S := S1x64) zeros2, View.ld_unit_zero (S := S10000x64) zeros2, View.ld_unit_zero (S := S400x64) zeros2]

/-- The same run with what it wrote spelt out. -/
theorem runLayer1_triple (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : ¬atFirst i) (hc1 : inLayer1 i) (hc2 : ¬inLayer2 i)
    (x0 : Vec F S10000x128 .f32) (x1 : Vec F S400x10000 .f32) (x2 : Vec F S128x128 .f32) (x3 : Vec F S1x128 .f32) (x4 : Vec F S128x64 .f32) (x5 : Vec F S1x64 .f32) (y6 y7 : Vec F S400x64 .f32) (xs0 : Vec F S10000x128 .bf16) (xs1 : Vec F S10000x64 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare xs0 ∗ (arg10.view.loc (c : Thread nD τ) ↦[arg10.view.set]{fullShare} arg10.view.writes (Elt F) (harg10.unread xs1) [⟨Rect.unit (k0_off1 i) S400x64.size (k0_off1_inb i hc1), k0_pay2 x1 xs0 x3 x4⟩])) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  have h := (runLayer1 c i arg1 harg1 arg2 harg2 arg3 harg3 arg4 harg4 arg5 harg5 arg6 harg6 arg7 harg7 arg8 harg8 arg9 harg9 arg10 harg10 hc0 hc1 hc2 x0 x1 x2 x3 x4 x5 y6 y7 xs0 xs1).2 E K
  rw [runLayer1_wrote] at h
  exact h

end Cert.Kernel.Body

end
-- ==== Proof.Kernel.RunLayer2.lean ====
import proofs.«106749_g48206712930318_cont_8to1_c_213_4_alg».proof.Proof.Kernel.RunLayer1

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A point of the second half: the body reads the adjacency block, the whole second scratch (the second layer's
    support) and the second bias row, and stores the block's softmax and log-softmax over the two output blocks;
    both scratches it leaves as it found them. The lists are what it wrote into the two output blocks. -/
noncomputable def runLayer2 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : ¬atFirst i) (hc1 : ¬inLayer1 i) (hc2 : inLayer2 i)
    (x0 : Vec F S10000x128 .f32) (x1 : Vec F S400x10000 .f32) (x2 : Vec F S128x128 .f32) (x3 : Vec F S1x128 .f32) (x4 : Vec F S128x64 .f32) (x5 : Vec F S1x64 .f32) (xs0 : Vec F S10000x128 .bf16) (xs1 : Vec F S10000x64 .bf16) :
    { L : List (View.Piece (Elt F) S400x64 .f32) × List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2) ∗ owns (c : Thread nD τ) arg9 fullShare xs0 ∗ owns (c : Thread nD τ) arg10 fullShare xs1) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K } := by
  refine ⟨(?_, ?_), fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]
    · iexists _; isplitr; · ipureintro; exact harg9.read_unread _
      iexact HS0
    iexists _; isplitr; · ipureintro; exact harg10.read_unread _
    iexact HS1

/-- What a second-half point wrote: the two output blocks whole, at the log-softmax and the softmax of the block of
    logits computed from the adjacency block, the second scratch's contents and the second bias row. -/
theorem runLayer2_wrote (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : ¬atFirst i) (hc1 : ¬inLayer1 i) (hc2 : inLayer2 i)
    (x0 : Vec F S10000x128 .f32) (x1 : Vec F S400x10000 .f32) (x2 : Vec F S128x128 .f32) (x3 : Vec F S1x128 .f32) (x4 : Vec F S128x64 .f32) (x5 : Vec F S1x64 .f32) (xs0 : Vec F S10000x128 .bf16) (xs1 : Vec F S10000x64 .bf16) :
    (runLayer2 c i arg1 harg1 arg2 harg2 arg3 harg3 arg4 harg4 arg5 harg5 arg6 harg6 arg7 harg7 arg8 harg8 arg9 harg9 arg10 harg10 hc0 hc1 hc2 x0 x1 x2 x3 x4 x5 xs0 xs1).1
      = ([⟨Rect.unit ![0, 0] S400x64.size inb_S400x64_S400x64_0_0, k0_pay7 x1 xs1 x5⟩],
         [⟨Rect.unit ![0, 0] S400x64.size inb_S400x64_S400x64_0_0, k0_pay6 x1 xs1 x5⟩]) := by
  unfold runLayer2; dsimp only
  simp only [View.readAt_eq_ld, Memref.IsWhole.read_unread, View.ld_unit_zero (S := S10000x128) zeros2, View.ld_unit_zero (S := S400x10000) zeros2, View.ld_unit_zero (S := S128x128) zeros2, View.ld_unit_zero (S := S1x128) zeros2, View.ld_unit_zero (S := S128x64) zeros2, View.ld_unit_zero (S := S1x64) zeros2, View.ld_unit_zero (S := S10000x64) zeros2, View.ld_unit_zero (S := S400x64) zeros2]

/-- The same run with what it wrote spelt out. -/
theorem runLayer2_triple (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : ¬atFirst i) (hc1 : ¬inLayer1 i) (hc2 : inLayer2 i)
    (x0 : Vec F S10000x128 .f32) (x1 : Vec F S400x10000 .f32) (x2 : Vec F S128x128 .f32) (x3 : Vec F S1x128 .f32) (x4 : Vec F S128x64 .f32) (x5 : Vec F S1x64 .f32) (xs0 : Vec F S10000x128 .bf16) (xs1 : Vec F S10000x64 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f [⟨Rect.unit ![0, 0] S400x64.size inb_S400x64_S400x64_0_0, k0_pay7 x1 xs1 x5⟩]) ∗ (∃ f, arg8.view.loc (c : Thread nD τ) ↦[arg8.view.set]{fullShare} arg8.view.writes (Elt F) f [⟨Rect.unit ![0, 0] S400x64.size inb_S400x64_S400x64_0_0, k0_pay6 x1 xs1 x5⟩]) ∗ owns (c : Thread nD τ) arg9 fullShare xs0 ∗ owns (c : Thread nD τ) arg10 fullShare xs1) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  have h := (runLayer2 c i arg1 harg1 arg2 harg2 arg3 harg3 arg4 harg4 arg5 harg5 arg6 harg6 arg7 harg7 arg8 harg8 arg9 harg9 arg10 harg10 hc0 hc1 hc2 x0 x1 x2 x3 x4 x5 xs0 xs1).2 E K
  rw [runLayer2_wrote] at h
  exact h

end Cert.Kernel.Body

end
-- ==== Proof.Kernel.Carried.lean ====
import proofs.«106749_g48206712930318_cont_8to1_c_213_4_alg».proof.Proof.Kernel.RunLayer2

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

/-! What the kernel carries from point to point, and what each point leaves.

    The first scratch holds, from the first point on, the first support `x · W1`, computed once from the two resident
    blocks. The second scratch is filled one block of 400 rows per first-half point: after point `t` its rows below
    `400 (t + 1)` are rows of the second support, row `r` computed at point `r / 400` from that point's block of the
    adjacency. From point 25 on all 10000 rows are in place, and each second-half point computes one block of the two
    results from the whole second scratch. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs of a point, and the two scratches -/

abbrev stg0 (t : Fin cfg0.N) : Memref sig .tc .vmem S10000x128 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S400x10000 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S128x128 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1x128 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S128x64 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S1x64 .f32 := win0_5.stage (cfg0.slots t 5)
abbrev stg5_whole (t : Fin cfg0.N) : (stg5 t).IsWhole := hstage0_5 ((cfg0.slots t 5).cast nbuf0_5)
abbrev stg6 (t : Fin cfg0.N) : Memref sig .tc .vmem S400x64 .f32 := win0_6.stage (cfg0.slots t 6)
abbrev stg6_whole (t : Fin cfg0.N) : (stg6 t).IsWhole := hstage0_6 ((cfg0.slots t 6).cast nbuf0_6)
abbrev stg7 (t : Fin cfg0.N) : Memref sig .tc .vmem S400x64 .f32 := win0_7.stage (cfg0.slots t 7)
abbrev stg7_whole (t : Fin cfg0.N) : (stg7 t).IsWhole := hstage0_7 ((cfg0.slots t 7).cast nbuf0_7)
abbrev scr1 : Memref sig .tc .vmem S10000x128 .bf16 := Memref.whole cc0_scratch0
abbrev scr2 : Memref sig .tc .vmem S10000x64 .bf16 := Memref.whole cc0_scratch1

/-- The class invariant, with the two scratches as memrefs owned at some contents. -/
theorem classInv_eq (c : Dev nD) :
    (Pipeline.ΦA spec0 c : sProp 𝕄)
      = iprop(iprop((∃ d, owns (c : Thread nD τ) scr1 fullShare d) ∗ (∃ d, owns (c : Thread nD τ) scr2 fullShare d)) ∗ (∃ r, prngReg c r)) := by
  unfold Pipeline.ΦA; rw [scopedRest0_eq]; simp only [scr1, scr2, owns_whole]; try rfl

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The two output windows are idle, and not written back, at the first-half points; -/
theorem idle6 : ∀ t : Fin cfg0.N, t.val < 25 → cfg0.idle 6 (grid0.coords t) = true ∧ (cfg0.win 6).flush t = false :=
  (by decide +kernel : ∀ t : Fin grid0.N, t.val < 25 → cfg0.idle 6 (grid0.coords t) = true ∧ win0_6.flush t = false)
theorem idle7 : ∀ t : Fin cfg0.N, t.val < 25 → cfg0.idle 7 (grid0.coords t) = true ∧ (cfg0.win 7).flush t = false :=
  (by decide +kernel : ∀ t : Fin grid0.N, t.val < 25 → cfg0.idle 7 (grid0.coords t) = true ∧ win0_7.flush t = false)
/-- and live at the second-half points. -/
theorem live6 : ∀ t : Fin cfg0.N, 25 ≤ t.val → cfg0.idle 6 (grid0.coords t) = false :=
  (by decide +kernel : ∀ t : Fin grid0.N, 25 ≤ t.val → cfg0.idle 6 (grid0.coords t) = false)
theorem live7 : ∀ t : Fin cfg0.N, 25 ≤ t.val → cfg0.idle 7 (grid0.coords t) = false :=
  (by decide +kernel : ∀ t : Fin grid0.N, 25 ≤ t.val → cfg0.idle 7 (grid0.coords t) = false)

/-! ## The two supports -/

theorem grid_pos : 0 < cfg0.N := by decide
/-- The first point. -/
abbrev firstPt : Fin cfg0.N := ⟨0, grid_pos⟩

/-- The first support: `x · W1` of the blocks of `x` and `W1` the first point finds (each is its whole array). -/
def sup1 (c : Dev nD) : Vec F S10000x128 .bf16 := k0_pay1 (iblk m c 0 firstPt) (iblk m c 2 firstPt)

theorem rowPoint_lt (j : S10000x64.Idx) : (j 0).val / 400 < cfg0.N := by
  have h : (j 0).val < 10000 := (j 0).isLt
  exact lt_of_lt_of_eq (by omega : (j 0).val / 400 < 50) (show (50 : ℕ) = cfg0.N from N_0.symm)
/-- The point that computes row `j 0` of the second support. -/
abbrev rowPoint (j : S10000x64.Idx) : Fin cfg0.N := ⟨(j 0).val / 400, rowPoint_lt j⟩

theorem rowLocal_ok (j : S10000x64.Idx) (o : ℕ) (h : o ≤ (j 0).val ∧ (j 0).val < o + 400) :
    ∀ a : Fin 2, (![o, 0] : Fin 2 → ℕ) a ≤ (j a).val ∧ (j a).val < (![o, 0] : Fin 2 → ℕ) a + S400x64.size a :=
  Rect.unit_rows_mem (size := S400x64.size) j rfl rfl h

/-- The second support, entry by entry: row `r` is row `r % 400` of the block point `r / 400` computes from its block of
    the adjacency, the first support, the bias row and `W2`. -/
def sup2 (c : Dev nD) : Vec F S10000x64 .bf16 := fun j =>
  k0_pay2 (iblk m c 1 (rowPoint j)) (sup1 m c) (iblk m c 3 (rowPoint j)) (iblk m c 4 (rowPoint j))
    (Rect.unitLocal (s := S10000x64) (off := ![400 * ((j 0).val / 400), 0]) (size := S400x64.size) j
      (rowLocal_ok j _ (by omega)))

/-- The same at the point a row is known to belong to. -/
theorem sup2_at (c : Dev nD) (j : S10000x64.Idx) (t : Fin cfg0.N) (h : 400 * t.val ≤ (j 0).val ∧ (j 0).val < 400 * t.val + 400) :
    sup2 m c j = k0_pay2 (iblk m c 1 t) (sup1 m c) (iblk m c 3 t) (iblk m c 4 t)
      (Rect.unitLocal (s := S10000x64) (off := ![400 * t.val, 0]) (size := S400x64.size) j (rowLocal_ok j _ h)) := by
  obtain rfl : t = rowPoint j := Fin.ext (by show t.val = (j 0).val / 400; omega)
  rfl

/-- The rows below `400 n` of `d` are rows of the second support. -/
def FilledTo (c : Dev nD) (n : ℕ) (d : Vec F S10000x64 .bf16) : Prop :=
  ∀ j : S10000x64.Idx, (j 0).val < 400 * n → d j = sup2 m c j

/-- Once 25 blocks are in, the scratch IS the second support. -/
theorem FilledTo.all {c : Dev nD} {n : ℕ} {d : Vec F S10000x64 .bf16} (h : FilledTo m c n d) (hn : 25 ≤ n) : d = sup2 m c :=
  funext fun j => h j (by have : (j 0).val < 10000 := (j 0).isLt; omega)

theorem FilledTo.mono {c : Dev nD} {n n' : ℕ} {d : Vec F S10000x64 .bf16} (h : FilledTo m c n d) (hn : 25 ≤ n) : FilledTo m c n' d :=
  fun j _ => h j (by have : (j 0).val < 10000 := (j 0).isLt; omega)

/-- One more block: the slice point `t` stores over contents filled to `400 t` leaves contents filled to `400 (t + 1)`. -/
theorem FilledTo.step {c : Dev nD} (t : Fin cfg0.N) (ht : t.val < 25) {d : Vec F S10000x64 .bf16} (h : FilledTo m c t.val d)
    (arg10 : Memref sig .tc .vmem S10000x64 .bf16) (harg10 : arg10.IsWhole)
    (inb : ∀ a, k0_off1 (grid0.coords t) a + S400x64.size a ≤ S10000x64.size a) :
    FilledTo m c (t.val + 1) (arg10.view.read (Elt F) (arg10.view.writes (Elt F) (harg10.unread d)
      [⟨Rect.unit (k0_off1 (grid0.coords t)) S400x64.size inb, k0_pay2 (iblk m c 1 t) (sup1 m c) (iblk m c 3 t) (iblk m c 4 t)⟩])) := by
  intro j hj
  rw [View.read_writes_cons_rows (d := ![10000, 64]) arg10.view (harg10.unread d) inb _ [] j (sliceOffset_eq t ht) (W := 400) rfl rfl]
  by_cases hin : 400 * t.val ≤ (j 0).val ∧ (j 0).val < 400 * t.val + 400
  · rw [dif_pos hin, sup2_at m c j t hin]
  · rw [dif_neg hin, View.writes_nil, harg10.read_unread]
    exact h j (by omega)

/-! ## The invariant -/

/-- Before point `n`: at the first point the class invariant (both scratches at anything); afterwards the first scratch at
    the first support and the second filled to `400 n`. -/
def Inv (c : Dev nD) : ℕ → sProp 𝕄
  | 0 => Pipeline.ΦA spec0 c
  | n + 1 => iprop(iprop(owns (c : Thread nD τ) scr1 fullShare (sup1 m c) ∗ (∃ d, ⌜FilledTo m c (n + 1) d⌝ ∗ owns (c : Thread nD τ) scr2 fullShare d)) ∗ (∃ r, prngReg c r))

theorem Inv_succ (c : Dev nD) (n : ℕ) :
    Inv m c (n + 1) = iprop(iprop(owns (c : Thread nD τ) scr1 fullShare (sup1 m c) ∗ (∃ d, ⌜FilledTo m c (n + 1) d⌝ ∗ owns (c : Thread nD τ) scr2 fullShare d)) ∗ (∃ r, prngReg c r)) := rfl

theorem Inv_pos (c : Dev nD) (n : ℕ) (hn : n ≠ 0) :
    Inv m c n = iprop(iprop(owns (c : Thread nD τ) scr1 fullShare (sup1 m c) ∗ (∃ d, ⌜FilledTo m c n d⌝ ∗ owns (c : Thread nD τ) scr2 fullShare d)) ∗ (∃ r, prngReg c r)) := by
  cases n with
  | zero => exact absurd rfl hn
  | succ n => rfl

/-! ## The proof data -/

/-- The proof data of the one pipeline on core `c`: each input's buffer keeps its block; the two output buffers hold,
    after a second-half point, the log-softmax and the softmax of the point's block of logits (at a first-half point
    they are idle and keep what they held); the invariant as above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay7 (iblk m c 1 t) (sup2 m c) (iblk m c 5 t)
    | ⟨7, _⟩ => k0_pay6 (iblk m c 1 t) (sup2 m c) (iblk m c 5 t)
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay7 (iblk m c 1 t) (sup2 m c) (iblk m c 5 t) := by dsimp only [dats]
theorem after7 (c : Dev nD) (t : Fin cfg0.N) : (dats m 0 c).after 7 t = k0_pay6 (iblk m c 1 t) (sup2 m c) (iblk m c 5 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem Inv_castSucc (c : Dev nD) (t : Fin cfg0.N) : (dats m 0 c).Φ t.castSucc = Inv m c t.val := by
  dsimp only [dats]; simp only [Fin.coe_castSucc]

end Cert.Kernel.Body

end
-- ==== Proof.Kernel.Obligation.lean ====
import proofs.«106749_g48206712930318_cont_8to1_c_213_4_alg».proof.Proof.Kernel.Carried

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

/-! The body at every point: from the invariant and the windows' buffers it runs to the invariant at the next point
    and the buffers at what the proof data names; hence the run of the whole program and its frame. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, the core's debts, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point. At the first point both scratches are at anything; the run stores the first support whole and
    the first block of the second. At a later first-half point the first scratch is at the first support and the second
    is filled to the point's offset; the run adds the point's block. At a second-half point the second scratch is the
    whole second support, and the run stores the two output blocks. The output windows are idle through the first half
    and keep what they held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Inv m c (t.val + 1) from rfl, Inv_succ, Inv_castSucc]
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  rw [show (dats m 0 c).leavesExact 3 t = owns (c : Thread nD τ) (stg3 t) fullShare ((dats m 0 c).after 3 t) from by
    unfold Dat.leavesExact; rw [live3 t], after3]
  rw [show (dats m 0 c).leavesExact 4 t = owns (c : Thread nD τ) (stg4 t) fullShare ((dats m 0 c).after 4 t) from by
    unfold Dat.leavesExact; rw [live4 t], after4]
  rw [show (dats m 0 c).leavesExact 5 t = owns (c : Thread nD τ) (stg5 t) fullShare ((dats m 0 c).after 5 t) from by
    unfold Dat.leavesExact; rw [live5 t], after5]
  have hN : t.val < 50 := lt_of_lt_of_eq t.isLt (show cfg0.N = 50 from N_0)
  by_cases h1 : t.val < 25
  · have hi6 := idle6 t h1
    have hi7 := idle7 t h1
    rw [Dat.leavesExact_idle _ 6 t hi6.1 hi6.2, Dat.leavesExact_idle _ 7 t hi7.1 hi7.2]
    have hc1 : inLayer1 (grid0.coords t) := (inLayer1_iff t).mpr h1
    have hc2 : ¬inLayer2 (grid0.coords t) := fun h => absurd ((inLayer2_iff t).mp h) (by omega)
    by_cases h0 : t.val = 0
    · have hc0 : atFirst (grid0.coords t) := (atFirst_iff t).mpr h0
      obtain rfl : t = firstPt := Fin.ext h0
      rw [show Inv m c (firstPt : Fin cfg0.N).val = Pipeline.ΦA spec0 c from rfl, classInv_eq]
      iintro ⟨⟨⟨HS0, ⟨%d, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runFirst_triple c (grid0.coords firstPt) _ _ _ _ _ _ _ _ _ _ _ _ _ _ _ _ _ _ _ _ hc0 hc1 hc2 (iblk m c 0 firstPt) (iblk m c 1 firstPt) (iblk m c 2 firstPt) (iblk m c 3 firstPt) (iblk m c 4 firstPt) (iblk m c 5 firstPt) ((dats m 0 c).before 6 firstPt d6) ((dats m 0 c).before 7 firstPt d7) d Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%fs0, HS0⟩, HS1⟩
      isplitl [HS0 HS1 Hg]
      · isplitl [HS0 HS1]
        · isplitl [HS0]
          · unfold owns; iexists _; isplitr
            swap; · iexact HS0
            ipureintro; exact read_whole_write _ _ zeros2 _ _
          iexists _; isplitr
          swap
          · unfold owns; iexists _; isplitr
            swap; · iexact HS1
            ipureintro; rfl
          ipureintro
          exact FilledTo.step m firstPt (by decide) (d := d) (fun j hj => absurd hj (by omega)) scr2 (Memref.isWhole_whole _) (k0_off1_inb (grid0.coords firstPt) hc1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · have hc0 : ¬atFirst (grid0.coords t) := fun h => h0 ((atFirst_iff t).mp h)
      rw [Inv_pos m c _ h0]
      iintro ⟨⟨⟨HS0, ⟨%d, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runLayer1_triple c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) ((dats m 0 c).before 6 t d6) ((dats m 0 c).before 7 t d7) (sup1 m c) d Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexists _; isplitr
          swap
          · unfold owns; iexists _; isplitr
            swap; · iexact HS1
            ipureintro; rfl
          ipureintro
          exact FilledTo.step m t h1 hd scr2 (Memref.isWhole_whole _) (k0_off1_inb (grid0.coords t) hc1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have h2 : 25 ≤ t.val := by omega
    have h0 : t.val ≠ 0 := by omega
    have hc0 : ¬atFirst (grid0.coords t) := fun h => h0 ((atFirst_iff t).mp h)
    have hc1 : ¬inLayer1 (grid0.coords t) := fun h => h1 ((inLayer1_iff t).mp h)
    have hc2 : inLayer2 (grid0.coords t) := (inLayer2_iff t).mpr h2
    rw [show (dats m 0 c).leavesExact 6 t = owns (c : Thread nD τ) (stg6 t) fullShare ((dats m 0 c).after 6 t) from by
      unfold Dat.leavesExact; rw [live6 t h2], after6]
    rw [show (dats m 0 c).leavesExact 7 t = owns (c : Thread nD τ) (stg7 t) fullShare ((dats m 0 c).after 7 t) from by
      unfold Dat.leavesExact; rw [live7 t h2], after7]
    rw [Inv_pos m c _ h0]
    iintro ⟨⟨⟨HS0, ⟨%d, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : d = sup2 m c := hd.all m h2
    iapply (runLayer2_triple c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) (sup1 m c) (sup2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, ⟨%f6, H6⟩, ⟨%f7, H7⟩, HS0, HS1⟩
    isplitl [HS0 HS1 Hg]
    · isplitl [HS0 HS1]
      · isplitl [HS0]; · iexact HS0
        iexists _; isplitr
        · ipureintro; exact fun j _ => rfl
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact read_whole_write _ _ zeros2 _ _
    unfold owns; iexists _; isplitr
    swap; · iexact H7
    ipureintro; exact read_whole_write _ _ zeros2 _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 :=
  Idealize.SL.BI.Entails.refl _

/-- After the last point the invariant gives the class invariant back: the scratches' contents are forgotten. -/
theorem inv_out (c : Dev nD) : (dats m 0 c).Φ (Fin.last cfg0.N) ⊢ Pipeline.ΦA spec0 c := by
  rw [show (dats m 0 c).Φ (Fin.last cfg0.N) = Inv m c 50 from rfl, Inv_pos m c 50 (by decide), classInv_eq]
  iintro ⟨⟨HS0, ⟨%d, %hd, HS1⟩⟩, Hg⟩
  isplitl [HS0 HS1]
  · isplitl [HS0]
    · iexists _; iexact HS0
    iexists _; iexact HS1
  iexact Hg

/-! ## The run and the frame -/

/-- Every weakly fair execution of the program terminates, and in every final state each windowed array holds what the
    library computes from the proof data — an input its launch contents, an output those overwritten block by block by
    what the body left at each write-back — and every other buffer outside the region its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KernelIdeal.Phases.lean ====
import proofs.«106749_g48206712930318_cont_8to1_c_213_4_alg».proof.Proof.Gen.KernelIdeal.Frame
import proofs.«106749_g48206712930318_cont_8to1_c_213_4_alg».proof.Proof.Gen.KernelIdeal.Skeleton
import Idealize.ShloMosaic.Lib.Pipeline.Value
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! The grid has fifty points. Point 0 computes the first layer's support `x · W1` into the first
    scratch; points 0–24 each compute one block of 400 rows of the second layer's support
    `relu(adj_blk · s1 + b1) · W2` into rows `400 t … 400 t + 399` of the second scratch; points 25–49
    each compute one block of 400 rows of the logits `adj_blk · s2 + b2` and of their softmax and
    log-softmax. Here: the three branch conditions of the body as predicates of the point, in closed form. -/

variable {F : FTy → Type} [FloatOps F]

/-- The body's first branch is taken: the point is the first one. -/
abbrev atFirst (i : grid0.Coords) : Prop := (Scalar.cmpi .ne (Scalar.extui (Scalar.cmpi .eq (BitVec.ofNat 32 (i 0).val) 0#32)) 0#32) = 1#1
theorem atFirst_iff : ∀ t : Fin cfg0.N, atFirst (grid0.coords t) ↔ t.val = 0 :=
  (by decide +kernel : ∀ t : Fin grid0.N, atFirst (grid0.coords t) ↔ t.val = 0)

/-- The body's second branch is taken: the point is in the first half of the grid. -/
abbrev inLayer1 (i : grid0.Coords) : Prop := k0_cond2 i = 1#1
theorem inLayer1_iff : ∀ t : Fin cfg0.N, inLayer1 (grid0.coords t) ↔ t.val < 25 :=
  (by decide +kernel : ∀ t : Fin grid0.N, inLayer1 (grid0.coords t) ↔ t.val < 25)

/-- The body's third branch is taken: the point is in the second half of the grid. -/
abbrev inLayer2 (i : grid0.Coords) : Prop := k0_cond3 i = 1#1
theorem inLayer2_iff : ∀ t : Fin cfg0.N, inLayer2 (grid0.coords t) ↔ 25 ≤ t.val :=
  (by decide +kernel : ∀ t : Fin grid0.N, inLayer2 (grid0.coords t) ↔ 25 ≤ t.val)

/-- The slice of the second scratch a first-half point writes starts at row `400 t`. -/
theorem sliceOffset_eq : ∀ t : Fin cfg0.N, t.val < 25 → k0_off1 (grid0.coords t) = ![400 * t.val, 0] :=
  (by decide +kernel : ∀ t : Fin grid0.N, t.val < 25 → k0_off1 (grid0.coords t) = ![400 * t.val, 0])

/-- The zero offsets of a rank-two rectangle, as the constant function. -/
theorem zeros2 : (![0, 0] : Fin 2 → ℕ) = fun _ => 0 := by funext a; fin_cases a <;> rfl

/-- One store through the whole-shape rectangle at zero offsets leaves its payload, whatever was there. -/
theorem read_whole_write {sig : RefSig} {κ : Kind} {sp : Space} {S : Shape} {e : EltTy} {Val : EltTy → Type}
    (v : View sig κ sp S e) (f : v.ty.Contents Val) {off : Fin S.rank → ℕ} (hz : off = fun _ => 0)
    (inb : ∀ a, off a + S.size a ≤ S.size a) (w : S.Idx → Val e) :
    v.read Val (v.writes Val f [(⟨Rect.unit off S.size inb, w⟩ : View.Piece Val S e)]) = w :=
  funext fun y => View.read_writes_cons_unit_of_mem v f inb w [] y y hz (fun a => (Nat.zero_add _).symm)

end Cert.KernelIdeal.Body

end
-- ==== Proof.KernelIdeal.RunFirst.lean ====
import proofs.«106749_g48206712930318_cont_8to1_c_213_4_alg».proof.Proof.KernelIdeal.Phases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first point: the body computes the first layer's support `x · W1` and stores it over the whole first
    scratch, then, as at every first-half point, stores one block of 400 rows into the second scratch. The lists
    are what it wrote into the two scratches. -/
noncomputable def runFirst (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : atFirst i) (hc1 : inLayer1 i) (hc2 : ¬inLayer2 i)
    (x0 : Vec F S10000x128 .f32) (x1 : Vec F S400x10000 .f32) (x2 : Vec F S128x128 .f32) (x3 : Vec F S1x128 .f32) (x4 : Vec F S128x64 .f32) (x5 : Vec F S1x64 .f32) (y6 y7 : Vec F S400x64 .f32) (xs1 : Vec F S10000x64 .bf16) :
    { L : List (View.Piece (Elt F) S10000x128 .bf16) × List (View.Piece (Elt F) S10000x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ (∃ d, owns (c : Thread nD τ) arg9 fullShare d) ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ (∃ f, arg9.view.loc (c : Thread nD τ) ↦[arg9.view.set]{fullShare} arg9.view.writes (Elt F) f L.1) ∗ (arg10.view.loc (c : Thread nD τ) ↦[arg10.view.set]{fullShare} arg10.view.writes (Elt F) (harg10.unread xs1) L.2)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K } := by
  refine ⟨(?_, ?_), fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexact HS1

/-- What the first point wrote: the whole first scratch at `x · W1` of the two resident blocks, and the point's slice
    of the second scratch at the block of the second support computed from that first support just stored. -/
theorem runFirst_wrote (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : atFirst i) (hc1 : inLayer1 i) (hc2 : ¬inLayer2 i)
    (x0 : Vec F S10000x128 .f32) (x1 : Vec F S400x10000 .f32) (x2 : Vec F S128x128 .f32) (x3 : Vec F S1x128 .f32) (x4 : Vec F S128x64 .f32) (x5 : Vec F S1x64 .f32) (y6 y7 : Vec F S400x64 .f32) (xs1 : Vec F S10000x64 .bf16) :
    (runFirst c i arg1 harg1 arg2 harg2 arg3 harg3 arg4 harg4 arg5 harg5 arg6 harg6 arg7 harg7 arg8 harg8 arg9 harg9 arg10 harg10 hc0 hc1 hc2 x0 x1 x2 x3 x4 x5 y6 y7 xs1).1
      = ([⟨Rect.unit ![0, 0] S10000x128.size inb_S10000x128_S10000x128_0_0, k0_pay1 x0 x2⟩],
         [⟨Rect.unit (k0_off1 i) S400x64.size (k0_off1_inb i hc1), k0_pay2 x1 (k0_pay1 x0 x2) x3 x4⟩]) := by
  unfold runFirst; dsimp only; sl_unfold_run_names
  simp only [View.readAt_eq_ld, Memref.IsWhole.read_unread, View.ld_unit_zero (S := S10000x128) zeros2, View.ld_unit_zero (S := S400x10000) zeros2, View.ld_unit_zero (S := S128x128) zeros2, View.ld_unit_zero (S := S1x128) zeros2, View.ld_unit_zero (S := S128x64) zeros2, View.ld_unit_zero (S := S1x64) zeros2, View.ld_unit_zero (S := S10000x64) zeros2, View.ld_unit_zero (S := S400x64) zeros2, View.readCov_unit_zero (S := S10000x128) _ zeros2]

/-- The same run with what it wrote spelt out. -/
theorem runFirst_triple (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : atFirst i) (hc1 : inLayer1 i) (hc2 : ¬inLayer2 i)
    (x0 : Vec F S10000x128 .f32) (x1 : Vec F S400x10000 .f32) (x2 : Vec F S128x128 .f32) (x3 : Vec F S1x128 .f32) (x4 : Vec F S128x64 .f32) (x5 : Vec F S1x64 .f32) (y6 y7 : Vec F S400x64 .f32) (xs1 : Vec F S10000x64 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ (∃ d, owns (c : Thread nD τ) arg9 fullShare d) ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ (∃ f, arg9.view.loc (c : Thread nD τ) ↦[arg9.view.set]{fullShare} arg9.view.writes (Elt F) f [⟨Rect.unit ![0, 0] S10000x128.size inb_S10000x128_S10000x128_0_0, k0_pay1 x0 x2⟩]) ∗ (arg10.view.loc (c : Thread nD τ) ↦[arg10.view.set]{fullShare} arg10.view.writes (Elt F) (harg10.unread xs1) [⟨Rect.unit (k0_off1 i) S400x64.size (k0_off1_inb i hc1), k0_pay2 x1 (k0_pay1 x0 x2) x3 x4⟩])) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  have h := (runFirst c i arg1 harg1 arg2 harg2 arg3 harg3 arg4 harg4 arg5 harg5 arg6 harg6 arg7 harg7 arg8 harg8 arg9 harg9 arg10 harg10 hc0 hc1 hc2 x0 x1 x2 x3 x4 x5 y6 y7 xs1).2 E K
  rw [runFirst_wrote] at h
  exact h

end Cert.KernelIdeal.Body

end
-- ==== Proof.KernelIdeal.RunLayer1.lean ====
import proofs.«106749_g48206712930318_cont_8to1_c_213_4_alg».proof.Proof.KernelIdeal.RunFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A point of the first half other than the first: the body reads the adjacency block, the first scratch (the
    first layer's support), the bias row and `W2`, and stores one block of 400 rows into the second scratch at
    the point's row offset; everything else it leaves as it found it. The list is what it wrote there. -/
noncomputable def runLayer1 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : ¬atFirst i) (hc1 : inLayer1 i) (hc2 : ¬inLayer2 i)
    (x0 : Vec F S10000x128 .f32) (x1 : Vec F S400x10000 .f32) (x2 : Vec F S128x128 .f32) (x3 : Vec F S1x128 .f32) (x4 : Vec F S128x64 .f32) (x5 : Vec F S1x64 .f32) (y6 y7 : Vec F S400x64 .f32) (xs0 : Vec F S10000x128 .bf16) (xs1 : Vec F S10000x64 .bf16) :
    { L1 : List (View.Piece (Elt F) S10000x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare xs0 ∗ (arg10.view.loc (c : Thread nD τ) ↦[arg10.view.set]{fullShare} arg10.view.writes (Elt F) (harg10.unread xs1) L1)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    iexact HS1

/-- What a later first-half point wrote: its slice of the second scratch, at the block of the second support computed
    from the adjacency block, the first scratch's contents, the bias row and `W2`. -/
theorem runLayer1_wrote (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : ¬atFirst i) (hc1 : inLayer1 i) (hc2 : ¬inLayer2 i)
    (x0 : Vec F S10000x128 .f32) (x1 : Vec F S400x10000 .f32) (x2 : Vec F S128x128 .f32) (x3 : Vec F S1x128 .f32) (x4 : Vec F S128x64 .f32) (x5 : Vec F S1x64 .f32) (y6 y7 : Vec F S400x64 .f32) (xs0 : Vec F S10000x128 .bf16) (xs1 : Vec F S10000x64 .bf16) :
    (runLayer1 c i arg1 harg1 arg2 harg2 arg3 harg3 arg4 harg4 arg5 harg5 arg6 harg6 arg7 harg7 arg8 harg8 arg9 harg9 arg10 harg10 hc0 hc1 hc2 x0 x1 x2 x3 x4 x5 y6 y7 xs0 xs1).1
      = [⟨Rect.unit (k0_off1 i) S400x64.size (k0_off1_inb i hc1), k0_pay2 x1 xs0 x3 x4⟩] := by
  unfold runLayer1; dsimp only
  simp only [View.readAt_eq_ld, Memref.IsWhole.read_unread, View.ld_unit_zero (S := S10000x128) zeros2, View.ld_unit_zero (S := S400x10000) zeros2, View.ld_unit_zero (S := S128x128) zeros2, View.ld_unit_zero (S := S1x128) zeros2, View.ld_unit_zero (S := S128x64) zeros2, View.ld_unit_zero (S := S1x64) zeros2, View.ld_unit_zero (S := S10000x64) zeros2, View.ld_unit_zero (S := S400x64) zeros2]

/-- The same run with what it wrote spelt out. -/
theorem runLayer1_triple (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : ¬atFirst i) (hc1 : inLayer1 i) (hc2 : ¬inLayer2 i)
    (x0 : Vec F S10000x128 .f32) (x1 : Vec F S400x10000 .f32) (x2 : Vec F S128x128 .f32) (x3 : Vec F S1x128 .f32) (x4 : Vec F S128x64 .f32) (x5 : Vec F S1x64 .f32) (y6 y7 : Vec F S400x64 .f32) (xs0 : Vec F S10000x128 .bf16) (xs1 : Vec F S10000x64 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare xs0 ∗ (arg10.view.loc (c : Thread nD τ) ↦[arg10.view.set]{fullShare} arg10.view.writes (Elt F) (harg10.unread xs1) [⟨Rect.unit (k0_off1 i) S400x64.size (k0_off1_inb i hc1), k0_pay2 x1 xs0 x3 x4⟩])) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  have h := (runLayer1 c i arg1 harg1 arg2 harg2 arg3 harg3 arg4 harg4 arg5 harg5 arg6 harg6 arg7 harg7 arg8 harg8 arg9 harg9 arg10 harg10 hc0 hc1 hc2 x0 x1 x2 x3 x4 x5 y6 y7 xs0 xs1).2 E K
  rw [runLayer1_wrote] at h
  exact h

end Cert.KernelIdeal.Body

end
-- ==== Proof.KernelIdeal.RunLayer2.lean ====
import proofs.«106749_g48206712930318_cont_8to1_c_213_4_alg».proof.Proof.KernelIdeal.RunLayer1

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A point of the second half: the body reads the adjacency block, the whole second scratch (the second layer's
    support) and the second bias row, and stores the block's softmax and log-softmax over the two output blocks;
    both scratches it leaves as it found them. The lists are what it wrote into the two output blocks. -/
noncomputable def runLayer2 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : ¬atFirst i) (hc1 : ¬inLayer1 i) (hc2 : inLayer2 i)
    (x0 : Vec F S10000x128 .f32) (x1 : Vec F S400x10000 .f32) (x2 : Vec F S128x128 .f32) (x3 : Vec F S1x128 .f32) (x4 : Vec F S128x64 .f32) (x5 : Vec F S1x64 .f32) (xs0 : Vec F S10000x128 .bf16) (xs1 : Vec F S10000x64 .bf16) :
    { L : List (View.Piece (Elt F) S400x64 .f32) × List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2) ∗ owns (c : Thread nD τ) arg9 fullShare xs0 ∗ owns (c : Thread nD τ) arg10 fullShare xs1) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K } := by
  refine ⟨(?_, ?_), fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]
    · iexists _; isplitr; · ipureintro; exact harg9.read_unread _
      iexact HS0
    iexists _; isplitr; · ipureintro; exact harg10.read_unread _
    iexact HS1

/-- What a second-half point wrote: the two output blocks whole, at the log-softmax and the softmax of the block of
    logits computed from the adjacency block, the second scratch's contents and the second bias row. -/
theorem runLayer2_wrote (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : ¬atFirst i) (hc1 : ¬inLayer1 i) (hc2 : inLayer2 i)
    (x0 : Vec F S10000x128 .f32) (x1 : Vec F S400x10000 .f32) (x2 : Vec F S128x128 .f32) (x3 : Vec F S1x128 .f32) (x4 : Vec F S128x64 .f32) (x5 : Vec F S1x64 .f32) (xs0 : Vec F S10000x128 .bf16) (xs1 : Vec F S10000x64 .bf16) :
    (runLayer2 c i arg1 harg1 arg2 harg2 arg3 harg3 arg4 harg4 arg5 harg5 arg6 harg6 arg7 harg7 arg8 harg8 arg9 harg9 arg10 harg10 hc0 hc1 hc2 x0 x1 x2 x3 x4 x5 xs0 xs1).1
      = ([⟨Rect.unit ![0, 0] S400x64.size inb_S400x64_S400x64_0_0, k0_pay7 x1 xs1 x5⟩],
         [⟨Rect.unit ![0, 0] S400x64.size inb_S400x64_S400x64_0_0, k0_pay6 x1 xs1 x5⟩]) := by
  unfold runLayer2; dsimp only
  simp only [View.readAt_eq_ld, Memref.IsWhole.read_unread, View.ld_unit_zero (S := S10000x128) zeros2, View.ld_unit_zero (S := S400x10000) zeros2, View.ld_unit_zero (S := S128x128) zeros2, View.ld_unit_zero (S := S1x128) zeros2, View.ld_unit_zero (S := S128x64) zeros2, View.ld_unit_zero (S := S1x64) zeros2, View.ld_unit_zero (S := S10000x64) zeros2, View.ld_unit_zero (S := S400x64) zeros2]

/-- The same run with what it wrote spelt out. -/
theorem runLayer2_triple (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (hc0 : ¬atFirst i) (hc1 : ¬inLayer1 i) (hc2 : inLayer2 i)
    (x0 : Vec F S10000x128 .f32) (x1 : Vec F S400x10000 .f32) (x2 : Vec F S128x128 .f32) (x3 : Vec F S1x128 .f32) (x4 : Vec F S128x64 .f32) (x5 : Vec F S1x64 .f32) (xs0 : Vec F S10000x128 .bf16) (xs1 : Vec F S10000x64 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f [⟨Rect.unit ![0, 0] S400x64.size inb_S400x64_S400x64_0_0, k0_pay7 x1 xs1 x5⟩]) ∗ (∃ f, arg8.view.loc (c : Thread nD τ) ↦[arg8.view.set]{fullShare} arg8.view.writes (Elt F) f [⟨Rect.unit ![0, 0] S400x64.size inb_S400x64_S400x64_0_0, k0_pay6 x1 xs1 x5⟩]) ∗ owns (c : Thread nD τ) arg9 fullShare xs0 ∗ owns (c : Thread nD τ) arg10 fullShare xs1) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  have h := (runLayer2 c i arg1 harg1 arg2 harg2 arg3 harg3 arg4 harg4 arg5 harg5 arg6 harg6 arg7 harg7 arg8 harg8 arg9 harg9 arg10 harg10 hc0 hc1 hc2 x0 x1 x2 x3 x4 x5 xs0 xs1).2 E K
  rw [runLayer2_wrote] at h
  exact h

end Cert.KernelIdeal.Body

end
-- ==== Proof.KernelIdeal.Carried.lean ====
import proofs.«106749_g48206712930318_cont_8to1_c_213_4_alg».proof.Proof.KernelIdeal.RunLayer2

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! What the kernel carries from point to point, and what each point leaves.

    The first scratch holds, from the first point on, the first support `x · W1`, computed once from the two resident
    blocks. The second scratch is filled one block of 400 rows per first-half point: after point `t` its rows below
    `400 (t + 1)` are rows of the second support, row `r` computed at point `r / 400` from that point's block of the
    adjacency. From point 25 on all 10000 rows are in place, and each second-half point computes one block of the two
    results from the whole second scratch. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs of a point, and the two scratches -/

abbrev stg0 (t : Fin cfg0.N) : Memref sig .tc .vmem S10000x128 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S400x10000 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S128x128 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1x128 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S128x64 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S1x64 .f32 := win0_5.stage (cfg0.slots t 5)
abbrev stg5_whole (t : Fin cfg0.N) : (stg5 t).IsWhole := hstage0_5 ((cfg0.slots t 5).cast nbuf0_5)
abbrev stg6 (t : Fin cfg0.N) : Memref sig .tc .vmem S400x64 .f32 := win0_6.stage (cfg0.slots t 6)
abbrev stg6_whole (t : Fin cfg0.N) : (stg6 t).IsWhole := hstage0_6 ((cfg0.slots t 6).cast nbuf0_6)
abbrev stg7 (t : Fin cfg0.N) : Memref sig .tc .vmem S400x64 .f32 := win0_7.stage (cfg0.slots t 7)
abbrev stg7_whole (t : Fin cfg0.N) : (stg7 t).IsWhole := hstage0_7 ((cfg0.slots t 7).cast nbuf0_7)
abbrev scr1 : Memref sig .tc .vmem S10000x128 .bf16 := Memref.whole cc0_scratch0
abbrev scr2 : Memref sig .tc .vmem S10000x64 .bf16 := Memref.whole cc0_scratch1

/-- The class invariant, with the two scratches as memrefs owned at some contents. -/
theorem classInv_eq (c : Dev nD) :
    (Pipeline.ΦA spec0 c : sProp 𝕄)
      = iprop(iprop((∃ d, owns (c : Thread nD τ) scr1 fullShare d) ∗ (∃ d, owns (c : Thread nD τ) scr2 fullShare d)) ∗ (∃ r, prngReg c r)) := by
  unfold Pipeline.ΦA; rw [scopedRest0_eq]; simp only [scr1, scr2, owns_whole]; try rfl

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The two output windows are idle, and not written back, at the first-half points; -/
theorem idle6 : ∀ t : Fin cfg0.N, t.val < 25 → cfg0.idle 6 (grid0.coords t) = true ∧ (cfg0.win 6).flush t = false :=
  (by decide +kernel : ∀ t : Fin grid0.N, t.val < 25 → cfg0.idle 6 (grid0.coords t) = true ∧ win0_6.flush t = false)
theorem idle7 : ∀ t : Fin cfg0.N, t.val < 25 → cfg0.idle 7 (grid0.coords t) = true ∧ (cfg0.win 7).flush t = false :=
  (by decide +kernel : ∀ t : Fin grid0.N, t.val < 25 → cfg0.idle 7 (grid0.coords t) = true ∧ win0_7.flush t = false)
/-- and live at the second-half points. -/
theorem live6 : ∀ t : Fin cfg0.N, 25 ≤ t.val → cfg0.idle 6 (grid0.coords t) = false :=
  (by decide +kernel : ∀ t : Fin grid0.N, 25 ≤ t.val → cfg0.idle 6 (grid0.coords t) = false)
theorem live7 : ∀ t : Fin cfg0.N, 25 ≤ t.val → cfg0.idle 7 (grid0.coords t) = false :=
  (by decide +kernel : ∀ t : Fin grid0.N, 25 ≤ t.val → cfg0.idle 7 (grid0.coords t) = false)

/-! ## The two supports -/

theorem grid_pos : 0 < cfg0.N := by decide
/-- The first point. -/
abbrev firstPt : Fin cfg0.N := ⟨0, grid_pos⟩

/-- The first support: `x · W1` of the blocks of `x` and `W1` the first point finds (each is its whole array). -/
def sup1 (c : Dev nD) : Vec F S10000x128 .bf16 := k0_pay1 (iblk m c 0 firstPt) (iblk m c 2 firstPt)

theorem rowPoint_lt (j : S10000x64.Idx) : (j 0).val / 400 < cfg0.N := by
  have h : (j 0).val < 10000 := (j 0).isLt
  exact lt_of_lt_of_eq (by omega : (j 0).val / 400 < 50) (show (50 : ℕ) = cfg0.N from N_0.symm)
/-- The point that computes row `j 0` of the second support. -/
abbrev rowPoint (j : S10000x64.Idx) : Fin cfg0.N := ⟨(j 0).val / 400, rowPoint_lt j⟩

theorem rowLocal_ok (j : S10000x64.Idx) (o : ℕ) (h : o ≤ (j 0).val ∧ (j 0).val < o + 400) :
    ∀ a : Fin 2, (![o, 0] : Fin 2 → ℕ) a ≤ (j a).val ∧ (j a).val < (![o, 0] : Fin 2 → ℕ) a + S400x64.size a :=
  Rect.unit_rows_mem (size := S400x64.size) j rfl rfl h

/-- The second support, entry by entry: row `r` is row `r % 400` of the block point `r / 400` computes from its block of
    the adjacency, the first support, the bias row and `W2`. -/
def sup2 (c : Dev nD) : Vec F S10000x64 .bf16 := fun j =>
  k0_pay2 (iblk m c 1 (rowPoint j)) (sup1 m c) (iblk m c 3 (rowPoint j)) (iblk m c 4 (rowPoint j))
    (Rect.unitLocal (s := S10000x64) (off := ![400 * ((j 0).val / 400), 0]) (size := S400x64.size) j
      (rowLocal_ok j _ (by omega)))

/-- The same at the point a row is known to belong to. -/
theorem sup2_at (c : Dev nD) (j : S10000x64.Idx) (t : Fin cfg0.N) (h : 400 * t.val ≤ (j 0).val ∧ (j 0).val < 400 * t.val + 400) :
    sup2 m c j = k0_pay2 (iblk m c 1 t) (sup1 m c) (iblk m c 3 t) (iblk m c 4 t)
      (Rect.unitLocal (s := S10000x64) (off := ![400 * t.val, 0]) (size := S400x64.size) j (rowLocal_ok j _ h)) := by
  obtain rfl : t = rowPoint j := Fin.ext (by show t.val = (j 0).val / 400; omega)
  rfl

/-- The rows below `400 n` of `d` are rows of the second support. -/
def FilledTo (c : Dev nD) (n : ℕ) (d : Vec F S10000x64 .bf16) : Prop :=
  ∀ j : S10000x64.Idx, (j 0).val < 400 * n → d j = sup2 m c j

/-- Once 25 blocks are in, the scratch IS the second support. -/
theorem FilledTo.all {c : Dev nD} {n : ℕ} {d : Vec F S10000x64 .bf16} (h : FilledTo m c n d) (hn : 25 ≤ n) : d = sup2 m c :=
  funext fun j => h j (by have : (j 0).val < 10000 := (j 0).isLt; omega)

theorem FilledTo.mono {c : Dev nD} {n n' : ℕ} {d : Vec F S10000x64 .bf16} (h : FilledTo m c n d) (hn : 25 ≤ n) : FilledTo m c n' d :=
  fun j _ => h j (by have : (j 0).val < 10000 := (j 0).isLt; omega)

/-- One more block: the slice point `t` stores over contents filled to `400 t` leaves contents filled to `400 (t + 1)`. -/
theorem FilledTo.step {c : Dev nD} (t : Fin cfg0.N) (ht : t.val < 25) {d : Vec F S10000x64 .bf16} (h : FilledTo m c t.val d)
    (arg10 : Memref sig .tc .vmem S10000x64 .bf16) (harg10 : arg10.IsWhole)
    (inb : ∀ a, k0_off1 (grid0.coords t) a + S400x64.size a ≤ S10000x64.size a) :
    FilledTo m c (t.val + 1) (arg10.view.read (Elt F) (arg10.view.writes (Elt F) (harg10.unread d)
      [⟨Rect.unit (k0_off1 (grid0.coords t)) S400x64.size inb, k0_pay2 (iblk m c 1 t) (sup1 m c) (iblk m c 3 t) (iblk m c 4 t)⟩])) := by
  intro j hj
  rw [View.read_writes_cons_rows (d := ![10000, 64]) arg10.view (harg10.unread d) inb _ [] j (sliceOffset_eq t ht) (W := 400) rfl rfl]
  by_cases hin : 400 * t.val ≤ (j 0).val ∧ (j 0).val < 400 * t.val + 400
  · rw [dif_pos hin, sup2_at m c j t hin]
  · rw [dif_neg hin, View.writes_nil, harg10.read_unread]
    exact h j (by omega)

/-! ## The invariant -/

/-- Before point `n`: at the first point the class invariant (both scratches at anything); afterwards the first scratch at
    the first support and the second filled to `400 n`. -/
def Inv (c : Dev nD) : ℕ → sProp 𝕄
  | 0 => Pipeline.ΦA spec0 c
  | n + 1 => iprop(iprop(owns (c : Thread nD τ) scr1 fullShare (sup1 m c) ∗ (∃ d, ⌜FilledTo m c (n + 1) d⌝ ∗ owns (c : Thread nD τ) scr2 fullShare d)) ∗ (∃ r, prngReg c r))

theorem Inv_succ (c : Dev nD) (n : ℕ) :
    Inv m c (n + 1) = iprop(iprop(owns (c : Thread nD τ) scr1 fullShare (sup1 m c) ∗ (∃ d, ⌜FilledTo m c (n + 1) d⌝ ∗ owns (c : Thread nD τ) scr2 fullShare d)) ∗ (∃ r, prngReg c r)) := rfl

theorem Inv_pos (c : Dev nD) (n : ℕ) (hn : n ≠ 0) :
    Inv m c n = iprop(iprop(owns (c : Thread nD τ) scr1 fullShare (sup1 m c) ∗ (∃ d, ⌜FilledTo m c n d⌝ ∗ owns (c : Thread nD τ) scr2 fullShare d)) ∗ (∃ r, prngReg c r)) := by
  cases n with
  | zero => exact absurd rfl hn
  | succ n => rfl

/-! ## The proof data -/

/-- The proof data of the one pipeline on core `c`: each input's buffer keeps its block; the two output buffers hold,
    after a second-half point, the log-softmax and the softmax of the point's block of logits (at a first-half point
    they are idle and keep what they held); the invariant as above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay7 (iblk m c 1 t) (sup2 m c) (iblk m c 5 t)
    | ⟨7, _⟩ => k0_pay6 (iblk m c 1 t) (sup2 m c) (iblk m c 5 t)
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay7 (iblk m c 1 t) (sup2 m c) (iblk m c 5 t) := by dsimp only [dats]
theorem after7 (c : Dev nD) (t : Fin cfg0.N) : (dats m 0 c).after 7 t = k0_pay6 (iblk m c 1 t) (sup2 m c) (iblk m c 5 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem Inv_castSucc (c : Dev nD) (t : Fin cfg0.N) : (dats m 0 c).Φ t.castSucc = Inv m c t.val := by
  dsimp only [dats]; simp only [Fin.coe_castSucc]

end Cert.KernelIdeal.Body

end
-- ==== Proof.KernelIdeal.Obligation.lean ====
import proofs.«106749_g48206712930318_cont_8to1_c_213_4_alg».proof.Proof.KernelIdeal.Carried

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! The body at every point: from the invariant and the windows' buffers it runs to the invariant at the next point
    and the buffers at what the proof data names; hence the run of the whole program and its frame. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, the core's debts, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point. At the first point both scratches are at anything; the run stores the first support whole and
    the first block of the second. At a later first-half point the first scratch is at the first support and the second
    is filled to the point's offset; the run adds the point's block. At a second-half point the second scratch is the
    whole second support, and the run stores the two output blocks. The output windows are idle through the first half
    and keep what they held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Inv m c (t.val + 1) from rfl, Inv_succ, Inv_castSucc]
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  rw [show (dats m 0 c).leavesExact 3 t = owns (c : Thread nD τ) (stg3 t) fullShare ((dats m 0 c).after 3 t) from by
    unfold Dat.leavesExact; rw [live3 t], after3]
  rw [show (dats m 0 c).leavesExact 4 t = owns (c : Thread nD τ) (stg4 t) fullShare ((dats m 0 c).after 4 t) from by
    unfold Dat.leavesExact; rw [live4 t], after4]
  rw [show (dats m 0 c).leavesExact 5 t = owns (c : Thread nD τ) (stg5 t) fullShare ((dats m 0 c).after 5 t) from by
    unfold Dat.leavesExact; rw [live5 t], after5]
  have hN : t.val < 50 := lt_of_lt_of_eq t.isLt (show cfg0.N = 50 from N_0)
  by_cases h1 : t.val < 25
  · have hi6 := idle6 t h1
    have hi7 := idle7 t h1
    rw [Dat.leavesExact_idle _ 6 t hi6.1 hi6.2, Dat.leavesExact_idle _ 7 t hi7.1 hi7.2]
    have hc1 : inLayer1 (grid0.coords t) := (inLayer1_iff t).mpr h1
    have hc2 : ¬inLayer2 (grid0.coords t) := fun h => absurd ((inLayer2_iff t).mp h) (by omega)
    by_cases h0 : t.val = 0
    · have hc0 : atFirst (grid0.coords t) := (atFirst_iff t).mpr h0
      obtain rfl : t = firstPt := Fin.ext h0
      rw [show Inv m c (firstPt : Fin cfg0.N).val = Pipeline.ΦA spec0 c from rfl, classInv_eq]
      iintro ⟨⟨⟨HS0, ⟨%d, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runFirst_triple c (grid0.coords firstPt) _ _ _ _ _ _ _ _ _ _ _ _ _ _ _ _ _ _ _ _ hc0 hc1 hc2 (iblk m c 0 firstPt) (iblk m c 1 firstPt) (iblk m c 2 firstPt) (iblk m c 3 firstPt) (iblk m c 4 firstPt) (iblk m c 5 firstPt) ((dats m 0 c).before 6 firstPt d6) ((dats m 0 c).before 7 firstPt d7) d Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%fs0, HS0⟩, HS1⟩
      isplitl [HS0 HS1 Hg]
      · isplitl [HS0 HS1]
        · isplitl [HS0]
          · unfold owns; iexists _; isplitr
            swap; · iexact HS0
            ipureintro; exact read_whole_write _ _ zeros2 _ _
          iexists _; isplitr
          swap
          · unfold owns; iexists _; isplitr
            swap; · iexact HS1
            ipureintro; rfl
          ipureintro
          exact FilledTo.step m firstPt (by decide) (d := d) (fun j hj => absurd hj (by omega)) scr2 (Memref.isWhole_whole _) (k0_off1_inb (grid0.coords firstPt) hc1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · have hc0 : ¬atFirst (grid0.coords t) := fun h => h0 ((atFirst_iff t).mp h)
      rw [Inv_pos m c _ h0]
      iintro ⟨⟨⟨HS0, ⟨%d, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runLayer1_triple c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) ((dats m 0 c).before 6 t d6) ((dats m 0 c).before 7 t d7) (sup1 m c) d Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexists _; isplitr
          swap
          · unfold owns; iexists _; isplitr
            swap; · iexact HS1
            ipureintro; rfl
          ipureintro
          exact FilledTo.step m t h1 hd scr2 (Memref.isWhole_whole _) (k0_off1_inb (grid0.coords t) hc1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have h2 : 25 ≤ t.val := by omega
    have h0 : t.val ≠ 0 := by omega
    have hc0 : ¬atFirst (grid0.coords t) := fun h => h0 ((atFirst_iff t).mp h)
    have hc1 : ¬inLayer1 (grid0.coords t) := fun h => h1 ((inLayer1_iff t).mp h)
    have hc2 : inLayer2 (grid0.coords t) := (inLayer2_iff t).mpr h2
    rw [show (dats m 0 c).leavesExact 6 t = owns (c : Thread nD τ) (stg6 t) fullShare ((dats m 0 c).after 6 t) from by
      unfold Dat.leavesExact; rw [live6 t h2], after6]
    rw [show (dats m 0 c).leavesExact 7 t = owns (c : Thread nD τ) (stg7 t) fullShare ((dats m 0 c).after 7 t) from by
      unfold Dat.leavesExact; rw [live7 t h2], after7]
    rw [Inv_pos m c _ h0]
    iintro ⟨⟨⟨HS0, ⟨%d, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : d = sup2 m c := hd.all m h2
    iapply (runLayer2_triple c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) (sup1 m c) (sup2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, ⟨%f6, H6⟩, ⟨%f7, H7⟩, HS0, HS1⟩
    isplitl [HS0 HS1 Hg]
    · isplitl [HS0 HS1]
      · isplitl [HS0]; · iexact HS0
        iexists _; isplitr
        · ipureintro; exact fun j _ => rfl
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact read_whole_write _ _ zeros2 _ _
    unfold owns; iexists _; isplitr
    swap; · iexact H7
    ipureintro; exact read_whole_write _ _ zeros2 _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 :=
  Idealize.SL.BI.Entails.refl _

/-- After the last point the invariant gives the class invariant back: the scratches' contents are forgotten. -/
theorem inv_out (c : Dev nD) : (dats m 0 c).Φ (Fin.last cfg0.N) ⊢ Pipeline.ΦA spec0 c := by
  rw [show (dats m 0 c).Φ (Fin.last cfg0.N) = Inv m c 50 from rfl, Inv_pos m c 50 (by decide), classInv_eq]
  iintro ⟨⟨HS0, ⟨%d, %hd, HS1⟩⟩, Hg⟩
  isplitl [HS0 HS1]
  · isplitl [HS0]
    · iexists _; iexact HS0
    iexists _; iexact HS1
  iexact Hg

/-! ## The run and the frame -/

/-- Every weakly fair execution of the program terminates, and in every final state each windowed array holds what the
    library computes from the proof data — an input its launch contents, an output those overwritten block by block by
    what the body left at each write-back — and every other buffer outside the region its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KernelIdeal.Blocks.lean ====
import proofs.«106749_g48206712930318_cont_8to1_c_213_4_alg».proof.Proof.Gen.KernelIdeal.Frame
import Idealize.ShloMosaic.Lib.ValueIdx
import Idealize.ShloMosaic.Lib.Pipeline.Value
import Idealize.ShloMosaic.Lib.StableHlo.Run

/-! The input windows' blocks, read back as entries of the argument arrays.

    The features `x`, the two weight matrices and the two bias rows are fetched whole at every grid point (their index
    maps are constantly zero); the adjacency is fetched in blocks of 400 rows, point `t` taking row block `t mod 25`.
    The two bias rows are the bias vectors reshaped to one row before the region is entered. -/

set_option maxRecDepth 16384

noncomputable section

namespace Cert.KernelIdeal.Blocks

open Cert.KernelIdeal Cert.KernelIdeal.Gen Idealize.ShloMosaic Idealize.ShloMosaic.ValueIdx Idealize.SL.Sem
open Idealize.ShloMosaic.TcCoe

variable {F : FTy → Type} [FloatOps F] (m : (ℓ : Loc nD τ sig) → Buf (Elt F) ℓ)

/-! ## The index maps over the grid -/

/-- The features' block index is zero on both axes at every point. -/
theorem idx_x : ∀ t : Fin cfg0.N, win0_0.index t (0 : Fin 2) = 0 ∧ win0_0.index t (1 : Fin 2) = 0 :=
  (by decide +kernel : ∀ t : Fin grid0.N, _)
/-- The adjacency's row-block index at point `t` is `t mod 25`; its column-block index is zero. -/
theorem idx_adj : ∀ t : Fin cfg0.N, win0_1.index t (0 : Fin 2) = t.val % 25 ∧ win0_1.index t (1 : Fin 2) = 0 :=
  (by decide +kernel : ∀ t : Fin grid0.N, _)
/-- The first weight matrix's block index is zero on both axes at every point. -/
theorem idx_w1 : ∀ t : Fin cfg0.N, win0_2.index t (0 : Fin 2) = 0 ∧ win0_2.index t (1 : Fin 2) = 0 :=
  (by decide +kernel : ∀ t : Fin grid0.N, _)
/-- The first bias row's block index is zero on both axes at every point. -/
theorem idx_b1 : ∀ t : Fin cfg0.N, win0_3.index t (0 : Fin 2) = 0 ∧ win0_3.index t (1 : Fin 2) = 0 :=
  (by decide +kernel : ∀ t : Fin grid0.N, _)
/-- The second weight matrix's block index is zero on both axes at every point. -/
theorem idx_w2 : ∀ t : Fin cfg0.N, win0_4.index t (0 : Fin 2) = 0 ∧ win0_4.index t (1 : Fin 2) = 0 :=
  (by decide +kernel : ∀ t : Fin grid0.N, _)
/-- The second bias row's block index is zero on both axes at every point. -/
theorem idx_b2 : ∀ t : Fin cfg0.N, win0_5.index t (0 : Fin 2) = 0 ∧ win0_5.index t (1 : Fin 2) = 0 :=
  (by decide +kernel : ∀ t : Fin grid0.N, _)

/-! ## The blocks fetched whole -/

/-- The features' block at any point is the features array. -/
theorem blk_x (c : Dev nD) (t : Fin cfg0.N) (y : S10000x128.Idx) :
    iblk m c 0 t y = m ((c : Thread nD τ).loc main_arg0) y := by
  show V m c main_arg0 (((cfg0.win 0).blk t).view.emb y) = _
  rw [V_main_arg0]
  refine congrArg _ (funext fun a => Fin.ext ?_)
  obtain ⟨e0, e1⟩ := idx_x t
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The first weight matrix's block at any point is that matrix. -/
theorem blk_w1 (c : Dev nD) (t : Fin cfg0.N) (y : S128x128.Idx) :
    iblk m c 2 t y = m ((c : Thread nD τ).loc main_arg2) y := by
  show V m c main_arg2 (((cfg0.win 2).blk t).view.emb y) = _
  rw [V_main_arg2]
  refine congrArg _ (funext fun a => Fin.ext ?_)
  obtain ⟨e0, e1⟩ := idx_w1 t
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weight matrix's block at any point is that matrix. -/
theorem blk_w2 (c : Dev nD) (t : Fin cfg0.N) (y : S128x64.Idx) :
    iblk m c 4 t y = m ((c : Thread nD τ).loc main_arg4) y := by
  show V m c main_arg4 (((cfg0.win 4).blk t).view.emb y) = _
  rw [V_main_arg4]
  refine congrArg _ (funext fun a => Fin.ext ?_)
  obtain ⟨e0, e1⟩ := idx_w2 t
  match a with
  | ⟨0, _⟩ => show win0_4.index t (0 : Fin 2) * 128 + 1 * (y 0).val = (y 0).val; omega
  | ⟨1, _⟩ => show win0_4.index t (1 : Fin 2) * 64 + 1 * (y 1).val = (y 1).val; omega

/-! ## The adjacency's row blocks -/

/-- Row `p` of the adjacency's block at point `t` is row `(t mod 25) · 400 + p` of the adjacency. -/
theorem blk_adj (c : Dev nD) (t : Fin cfg0.N) (p : Fin 400) (k : Fin 10000) :
    iblk m c 1 t (ix2 p k)
      = m ((c : Thread nD τ).loc main_arg1) (ix2 (⟨(t.val % 25) * 400 + p.val, by have := p.isLt; omega⟩ : Fin 10000) k) := by
  show V m c main_arg1 (((cfg0.win 1).blk t).view.emb (ix2 p k)) = _
  rw [V_main_arg1]
  refine congrArg _ (funext fun a => Fin.ext ?_)
  obtain ⟨e0, e1⟩ := idx_adj t
  match a with
  | ⟨0, _⟩ => show win0_1.index t (0 : Fin 2) * 400 + 1 * p.val = (t.val % 25) * 400 + p.val; rw [e0]; omega
  | ⟨1, _⟩ => show win0_1.index t (1 : Fin 2) * 10000 + 1 * k.val = k.val; omega

/-! ## The bias rows -/

/-- Entering the region, the first bias row is the first bias vector reshaped to one row. -/
theorem V_b1 (c : Dev nD) :
    (V m c main_v0 : S1x128.Idx → Elt F .f32) = shapeCast S1x128 (m ((c : Thread nD τ).loc main_arg3)) shapeCasts_S128_S1x128 := by
  dsimp only [V, hostOps0]
  after_results
  rfl

/-- Entering the region, the second bias row is the second bias vector reshaped to one row. -/
theorem V_b2 (c : Dev nD) :
    (V m c main_v1 : S1x64.Idx → Elt F .f32) = shapeCast S1x64 (m ((c : Thread nD τ).loc main_arg5)) shapeCasts_S64_S1x64 := by
  dsimp only [V, hostOps0]
  after_results
  rfl

/-- Entry `k` of the first bias row's block at any point is entry `k` of the first bias vector. -/
theorem blk_b1 (c : Dev nD) (t : Fin cfg0.N) (k : Fin 128) :
    iblk m c 3 t (ix2 (0 : Fin 1) k) = m ((c : Thread nD τ).loc main_arg3) (ix1 k) := by
  show V m c main_v0 (((cfg0.win 3).blk t).view.emb (ix2 (0 : Fin 1) k)) = _
  have hi : ((cfg0.win 3).blk t).view.emb (ix2 (0 : Fin 1) k) = ix2 (0 : Fin 1) k := by
    funext a; apply Fin.ext
    obtain ⟨e0, e1⟩ := idx_b1 t
    match a with
    | ⟨0, _⟩ => show win0_3.index t (0 : Fin 2) * 1 + 1 * 0 = 0; omega
    | ⟨1, _⟩ => show win0_3.index t (1 : Fin 2) * 128 + 1 * k.val = k.val; omega
  rw [hi, V_b1]
  exact shapeCast_apply _ _ _ (ix1 k) (by
    rw [Shape.rowMajor_val_one, Shape.rowMajor_val_two]; show k.val = 0 * 128 + k.val; omega)

/-- Entry `k` of the second bias row's block at any point is entry `k` of the second bias vector. -/
theorem blk_b2 (c : Dev nD) (t : Fin cfg0.N) (k : Fin 64) :
    iblk m c 5 t (ix2 (0 : Fin 1) k) = m ((c : Thread nD τ).loc main_arg5) (ix1 k) := by
  show V m c main_v1 (((cfg0.win 5).blk t).view.emb (ix2 (0 : Fin 1) k)) = _
  have hi : ((cfg0.win 5).blk t).view.emb (ix2 (0 : Fin 1) k) = ix2 (0 : Fin 1) k := by
    funext a; apply Fin.ext
    obtain ⟨e0, e1⟩ := idx_b2 t
    match a with
    | ⟨0, _⟩ => show win0_5.index t (0 : Fin 2) * 1 + 1 * 0 = 0; omega
    | ⟨1, _⟩ => show win0_5.index t (1 : Fin 2) * 64 + 1 * k.val = k.val; omega
  rw [hi, V_b2]
  exact shapeCast_apply _ _ _ (ix1 k) (by
    rw [Shape.rowMajor_val_one, Shape.rowMajor_val_two]; show k.val = 0 * 64 + k.val; omega)

end Cert.KernelIdeal.Blocks

end
-- ==== Proof.Spec.lean ====
import Idealize.ShloMosaic.PureOps.Ideal
import Idealize.ShloMosaic.PureOps.Ideal.Laws
import Idealize.ShloMosaic.Lib.ValueIdx

/-! The two-layer graph convolution, row by row, over the extended reals.

    With `s1 = x · W1`, `h = max (adj · s1 + b1) 0`, `s2 = h · W2` and `logits = adj · s2 + b2`, the
    results are the row-wise log-softmax and softmax of `logits`, both written through the row's maximum:
    `z = logits - max`, `e = exp z`, softmax `e / Σ e`, log-softmax `z - log Σ e`.
    Each quantity of a row depends on that row of `adj` only (and on all of `x`, `W1`, `b1`, `W2`, `b2`), which
    is why the rows may be computed in blocks, in any order, once the supports are known. Everything here is
    stated for one row at a time, so that a block of rows and the whole array read the same. -/

noncomputable section

namespace Cert.Spec

open Idealize.ShloMosaic Idealize.ShloMosaic.ValueIdx

/-- An array of extended reals with `a` rows and `b` columns. -/
abbrev Mat (a b : Nat) : Type := (⟨2, ![a, b]⟩ : Shape).Idx → EReal

/-- The float zero the kernel and the reference compare against in `relu`. -/
abbrev zero32 : EReal := Ideal.ofBits .f32 0x00000000#32
/-- The float `-∞` both row maxima start from. -/
abbrev negInf32 : EReal := Ideal.ofBits .f32 0xFF800000#32

/-- Entry `(r, h)` of the first support `x · W1`. -/
def support1 (x : Mat 10000 128) (w1 : Mat 128 128) (r : Fin 10000) (h : Fin 128) : EReal :=
  ∑ k : Fin 128, x (ix2 r k) * w1 (ix2 k h)

/-- One row of the second support: from a row `arow` of the adjacency, the first support `s1`, the bias `b1`
    and `W2`: `Σ_k max (Σ_q arow q · s1 q k + b1 k) 0 · W2 k c`. -/
def rowSupport2 (arow : Fin 10000 → EReal) (s1 : Mat 10000 128) (b1 : Fin 128 → EReal) (w2 : Mat 128 64)
    (c : Fin 64) : EReal :=
  ∑ k : Fin 128, max ((∑ q : Fin 10000, arow q * s1 (ix2 q k)) + b1 k) zero32 * w2 (ix2 k c)

/-- One row of the logits: `Σ_q arow q · s2 q c + b2 c`. -/
def rowLogits (arow : Fin 10000 → EReal) (s2 : Mat 10000 64) (b2 : Fin 64 → EReal) (c : Fin 64) : EReal :=
  (∑ q : Fin 10000, arow q * s2 (ix2 q c)) + b2 c

/-- The maximum of a row of 64 logits, folded from `-∞`. -/
def rowMax (lg : Fin 64 → EReal) : EReal := (Finset.univ : Finset (Fin 64)).fold max negInf32 lg

/-- A row of logits less its maximum. -/
def rowShifted (lg : Fin 64 → EReal) (c : Fin 64) : EReal := lg c - rowMax lg

/-- The sum of the exponentials of the shifted row. -/
def rowExpSum (lg : Fin 64 → EReal) : EReal := ∑ c : Fin 64, Ideal.exp (rowShifted lg c)

/-- The softmax of a row of logits. -/
def rowSoftmax (lg : Fin 64 → EReal) (c : Fin 64) : EReal := Ideal.div (Ideal.exp (rowShifted lg c)) (rowExpSum lg)

/-- The log-softmax of a row of logits. -/
def rowLogSoftmax (lg : Fin 64 → EReal) (c : Fin 64) : EReal := rowShifted lg c - Ideal.log (rowExpSum lg)

section Whole

variable (x : Mat 10000 128) (adj : Mat 10000 10000) (w1 : Mat 128 128) (b1 : Fin 128 → EReal) (w2 : Mat 128 64)
  (b2 : Fin 64 → EReal)

/-- The first support as an array. -/
def s1Arr : Mat 10000 128 := fun j => support1 x w1 (j 0) (j 1)

/-- The second support as an array: row `r` from row `r` of the adjacency. -/
def s2Arr : Mat 10000 64 := fun j => rowSupport2 (fun q => adj (ix2 (j 0) q)) (s1Arr x w1) b1 w2 (j 1)

/-- Row `r` of the logits. -/
def logitsRow (r : Fin 10000) : Fin 64 → EReal := rowLogits (fun q => adj (ix2 r q)) (s2Arr x adj w1 b1 w2) b2

/-- The log-softmax result as an array. -/
def logSoftmaxArr : Mat 10000 64 := fun j => rowLogSoftmax (logitsRow x adj w1 b1 w2 b2 (j 0)) (j 1)

/-- The softmax result as an array. -/
def softmaxArr : Mat 10000 64 := fun j => rowSoftmax (logitsRow x adj w1 b1 w2 b2 (j 0)) (j 1)

end Whole

end Cert.Spec

end
-- ==== Proof.KernelIdeal.PayloadValues.lean ====
import proofs.«106749_g48206712930318_cont_8to1_c_213_4_alg».proof.Proof.Gen.KernelIdeal.Skeleton
import proofs.«106749_g48206712930318_cont_8to1_c_213_4_alg».proof.Proof.Spec
import Idealize.ShloMosaic.Lib.ValueIdx
import Idealize.ShloMosaic.Lib.ValueLayout
import Idealize.ShloMosaic.Lib.Pipeline.Value
import Idealize.ShloMosaic.PureOps.Ideal.Laws

/-! # The body's arithmetic, entry by entry

    Each value the body stores is read at one entry (p, c) of its block and identified with the row functions of the
    specification. A product of two arrays into the zero array is, at an entry, the sum over the contracted
    coordinate of the products; a bias row added to a block adds the bias of the entry's column; a lane reduction
    over the 64 columns of a row is a fold (maximum) or a sum over `Fin 64`; a reduced column `[400]` kept as
    `[400, 1]` and spread over `[400, 64]` reads, at (p, c), the reduced value of row `p`. Changes of float format
    are the identity on extended reals. Hence the first support is `Σ_k x r k · W1 k h`, a block of the second
    support is `Σ_k max (Σ_q adj p q · s1 q k + b1 k) 0 · W2 k c`, and the two results of a block are the softmax
    and the log-softmax of the row of logits `Σ_q adj p q · s2 q c + b2 c`, both written through the row's maximum. -/

noncomputable section

namespace Cert.KernelIdeal.PayloadValues

open Cert.KernelIdeal Cert.KernelIdeal.Gen Idealize.ShloMosaic Idealize.ShloMosaic.ValueIdx

/-! ## The four products at an entry -/

/-- The left operand's index at output entry `i` keeps the row of `i`. -/
theorem matmul_x_w1_lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- The right operand's index at output entry `i` keeps the column of `i`. -/
theorem matmul_x_w1_rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl
/-- The product of a 10000×128 by a 128×128 array into the zero array, at entry (p, c): the sum over the
    contracted coordinate of the products of the entries. -/
theorem matmul_x_w1 {φ₁ φ₂ : FTy} (l : FVec Ideal S10000x128 φ₁) (r : FVec Ideal S128x128 φ₂) (p : Fin 10000) (c : Fin 128) :
    matmul dot_S10000x128_S128x128_S10000x128_1_0_0_1_n_n none l r (constant (F := Ideal) S10000x128 .f32 0x00000000#32) (ix2 p c)
      = ∑ q : Fin 128, l (ix2 p q) * r (ix2 q c) := by
  refine (Ideal.matmul_constant_zero_apply dot_S10000x128_S128x128_S10000x128_1_0_0_1_n_n none l r (ix2 p c)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p c) ((contrEquiv1 dot_S10000x128_S128x128_S10000x128_1_0_0_1_n_n 128 rfl rfl).symm k) = ix2 p k :=
    funext fun a => Fin.ext (by
      match a with
      | ⟨0, _⟩ => exact matmul_x_w1_lhs0 _ _
      | ⟨1, _⟩ => exact (dot_S10000x128_S128x128_S10000x128_1_0_0_1_n_n.lhsIdx_val_of_single rfl _ _).trans hk)
  have er : dot_S10000x128_S128x128_S10000x128_1_0_0_1_n_n.rhsIdx (ix2 p c) ((contrEquiv1 dot_S10000x128_S128x128_S10000x128_1_0_0_1_n_n 128 rfl rfl).symm k) = ix2 k c :=
    funext fun a => Fin.ext (by
      match a with
      | ⟨0, _⟩ => exact (dot_S10000x128_S128x128_S10000x128_1_0_0_1_n_n.rhsIdx_val_of_single rfl _ _).trans hk
      | ⟨1, _⟩ => exact matmul_x_w1_rhs1 _ _)
  rw [el, er]

/-- The left operand's index at output entry `i` keeps the row of `i`. -/
theorem matmul_adj_s1_lhs0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
/-- The right operand's index at output entry `i` keeps the column of `i`. -/
theorem matmul_adj_s1_rhs1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl
/-- The product of a 400×10000 by a 10000×128 array into the zero array, at entry (p, c): the sum over the
    contracted coordinate of the products of the entries. -/
theorem matmul_adj_s1 {φ₁ φ₂ : FTy} (l : FVec Ideal S400x10000 φ₁) (r : FVec Ideal S10000x128 φ₂) (p : Fin 400) (c : Fin 128) :
    matmul dot_S400x10000_S10000x128_S400x128_1_0_0_1_n_n none l r (constant (F := Ideal) S400x128 .f32 0x00000000#32) (ix2 p c)
      = ∑ q : Fin 10000, l (ix2 p q) * r (ix2 q c) := by
  refine (Ideal.matmul_constant_zero_apply dot_S400x10000_S10000x128_S400x128_1_0_0_1_n_n none l r (ix2 p c)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p c) ((contrEquiv1 dot_S400x10000_S10000x128_S400x128_1_0_0_1_n_n 10000 rfl rfl).symm k) = ix2 p k :=
    funext fun a => Fin.ext (by
      match a with
      | ⟨0, _⟩ => exact matmul_adj_s1_lhs0 _ _
      | ⟨1, _⟩ => exact (dot_S400x10000_S10000x128_S400x128_1_0_0_1_n_n.lhsIdx_val_of_single rfl _ _).trans hk)
  have er : dot_S400x10000_S10000x128_S400x128_1_0_0_1_n_n.rhsIdx (ix2 p c) ((contrEquiv1 dot_S400x10000_S10000x128_S400x128_1_0_0_1_n_n 10000 rfl rfl).symm k) = ix2 k c :=
    funext fun a => Fin.ext (by
      match a with
      | ⟨0, _⟩ => exact (dot_S400x10000_S10000x128_S400x128_1_0_0_1_n_n.rhsIdx_val_of_single rfl _ _).trans hk
      | ⟨1, _⟩ => exact matmul_adj_s1_rhs1 _ _)
  rw [el, er]

/-- The left operand's index at output entry `i` keeps the row of `i`. -/
theorem matmul_h_w2_lhs0 (i : S400x64.Idx) (q : dot_S400x128_S128x64_S400x64_1_0_0_1_n_n.contr.Idx) : (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide),
    dif_pos (show (0 : Fin S400x128.rank) ∈ dot_S400x128_S128x64_S400x64_1_0_0_1_n_n.lhsNonContracting by decide)]
  rfl
/-- The right operand's index at output entry `i` keeps the column of `i`. -/
theorem matmul_h_w2_rhs1 (i : S400x64.Idx) (q : dot_S400x128_S128x64_S400x64_1_0_0_1_n_n.contr.Idx) : (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide),
    dif_pos (show (1 : Fin S128x64.rank) ∈ dot_S400x128_S128x64_S400x64_1_0_0_1_n_n.rhsNonContracting by decide)]
  rfl
/-- The product of a 400×128 by a 128×64 array into the zero array, at entry (p, c): the sum over the
    contracted coordinate of the products of the entries. -/
theorem matmul_h_w2 {φ₁ φ₂ : FTy} (l : FVec Ideal S400x128 φ₁) (r : FVec Ideal S128x64 φ₂) (p : Fin 400) (c : Fin 64) :
    matmul dot_S400x128_S128x64_S400x64_1_0_0_1_n_n none l r (constant (F := Ideal) S400x64 .f32 0x00000000#32) (ix2 p c)
      = ∑ q : Fin 128, l (ix2 p q) * r (ix2 q c) := by
  refine (Ideal.matmul_constant_zero_apply dot_S400x128_S128x64_S400x64_1_0_0_1_n_n none l r (ix2 p c)).trans ?_
  rw [← Equiv.sum_comp (contrEquiv1 dot_S400x128_S128x64_S400x64_1_0_0_1_n_n 128 rfl rfl).symm]
  refine Finset.sum_congr rfl fun k _ => ?_
  have hk := contrEquiv1_symm_val dot_S400x128_S128x64_S400x64_1_0_0_1_n_n 128 rfl rfl k
  have el : dot_S400x128_S128x64_S400x64_1_0_0_1_n_n.lhsIdx (ix2 p c) ((contrEquiv1 dot_S400x128_S128x64_S400x64_1_0_0_1_n_n 128 rfl rfl).symm k) = ix2 p k :=
    funext fun a => Fin.ext (by
      match a with
      | ⟨0, _⟩ => exact matmul_h_w2_lhs0 _ _
      | ⟨1, _⟩ => exact (dot_S400x128_S128x64_S400x64_1_0_0_1_n_n.lhsIdx_val_of_single rfl _ _).trans hk)
  have er : dot_S400x128_S128x64_S400x64_1_0_0_1_n_n.rhsIdx (ix2 p c) ((contrEquiv1 dot_S400x128_S128x64_S400x64_1_0_0_1_n_n 128 rfl rfl).symm k) = ix2 k c :=
    funext fun a => Fin.ext (by
      match a with
      | ⟨0, _⟩ => exact (dot_S400x128_S128x64_S400x64_1_0_0_1_n_n.rhsIdx_val_of_single rfl _ _).trans hk
      | ⟨1, _⟩ => exact matmul_h_w2_rhs1 _ _)
  rw [el, er]

/-- The left operand's index at output entry `i` keeps the row of `i`. -/
theorem matmul_adj_s2_lhs0 (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide),
    dif_pos (show (0 : Fin S400x10000.rank) ∈ dot_S400x10000_S10000x64_S400x64_1_0_0_1_n_n.lhsNonContracting by decide)]
  rfl
/-- The right operand's index at output entry `i` keeps the column of `i`. -/
theorem matmul_adj_s2_rhs1 (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide),
    dif_pos (show (1 : Fin S10000x64.rank) ∈ dot_S400x10000_S10000x64_S400x64_1_0_0_1_n_n.rhsNonContracting by decide)]
  rfl
/-- The product of a 400×10000 by a 10000×64 array into the zero array, at entry (p, c): the sum over the
    contracted coordinate of the products of the entries. -/
theorem matmul_adj_s2 {φ₁ φ₂ : FTy} (l : FVec Ideal S400x10000 φ₁) (r : FVec Ideal S10000x64 φ₂) (p : Fin 400) (c : Fin 64) :
    matmul dot_S400x10000_S10000x64_S400x64_1_0_0_1_n_n none l r (constant (F := Ideal) S400x64 .f32 0x00000000#32) (ix2 p c)
      = ∑ q : Fin 10000, l (ix2 p q) * r (ix2 q c) := by
  refine (Ideal.matmul_constant_zero_apply dot_S400x10000_S10000x64_S400x64_1_0_0_1_n_n none l r (ix2 p c)).trans ?_
  rw [← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 p c) ((contrEquiv1 dot_S400x10000_S10000x64_S400x64_1_0_0_1_n_n 10000 rfl rfl).symm k) = ix2 p k :=
    funext fun a => Fin.ext (by
      match a with
      | ⟨0, _⟩ => exact matmul_adj_s2_lhs0 _ _
      | ⟨1, _⟩ => exact (dot_S400x10000_S10000x64_S400x64_1_0_0_1_n_n.lhsIdx_val_of_single rfl _ _).trans hk)
  have er : dot_S400x10000_S10000x64_S400x64_1_0_0_1_n_n.rhsIdx (ix2 p c) ((contrEquiv1 dot_S400x10000_S10000x64_S400x64_1_0_0_1_n_n 10000 rfl rfl).symm k) = ix2 k c :=
    funext fun a => Fin.ext (by
      match a with
      | ⟨0, _⟩ => exact (dot_S400x10000_S10000x64_S400x64_1_0_0_1_n_n.rhsIdx_val_of_single rfl _ _).trans hk
      | ⟨1, _⟩ => exact matmul_adj_s2_rhs1 _ _)
  rw [el, er]

/-! ## A column kept by a reduction: `[a] → [a, 1] → [a, b]` -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two supports -/

/-- The first support at entry (r, h). -/
theorem pay1_apply (v9 : Vec Ideal S10000x128 .f32) (v10 : Vec Ideal S128x128 .f32) (r : Fin 10000) (h : Fin 128) :
    k0_pay1 (F := Ideal) v9 v10 (ix2 r h) = Cert.Spec.support1 v9 v10 r h := by
  show shapeCast S10000x128 (truncf .bf16 (matmul (φ₁ := .f32) (φ₂ := .f32) dot_S10000x128_S128x128_S10000x128_1_0_0_1_n_n none v9 v10
    (constant (F := Ideal) S10000x128 .f32 0x00000000#32)) bitsLt_bf16_f32) shapeCasts_S10000x128_S10000x128 (ix2 r h) = _
  unfold Cert.Spec.support1
  refine (congrFun (shapeCast_self _ shapeCasts_S10000x128_S10000x128) (ix2 r h)).trans ?_
  exact matmul_x_w1 (φ₁ := .f32) (φ₂ := .f32) v9 v10 r h

/-- One 400-row block of the hidden layer as the body computes it: the block of the adjacency times the first support,
    plus the bias row on every row, and the larger of that and zero. -/
def hiddenBlk (v9 : FVec Ideal S400x10000 .f32) (v11 : FVec Ideal S10000x128 .bf16) (v13 : FVec Ideal S1x128 .f32) :
    FVec Ideal S400x128 .f32 :=
  maximumf
    (addf (matmul dot_S400x10000_S10000x128_S400x128_1_0_0_1_n_n none (truncf .bf16 v9 bitsLt_bf16_f32) v11
        (constant (F := Ideal) S400x128 .f32 0x00000000#32))
      (broadcastTo S400x128 (shapeCast S1x128 v13 shapeCasts_S1x128_S1x128) broadcasts_S1x128_S400x128))
    (broadcast S400x128 (Scalar.ofBits (F := Ideal) .f32 0x00000000#32))

/-- Entry (p, k) of the hidden block. -/
theorem hiddenBlk_apply (v9 : FVec Ideal S400x10000 .f32) (v11 : FVec Ideal S10000x128 .bf16) (v13 : FVec Ideal S1x128 .f32)
    (p : Fin 400) (k : Fin 128) :
    hiddenBlk v9 v11 v13 (ix2 p k)
      = max ((∑ q : Fin 10000, v9 (ix2 p q) * v11 (ix2 q k)) + v13 (ix2 0 k)) Cert.Spec.zero32 := by
  unfold hiddenBlk
  refine (maximumf_apply _ _ _).trans ?_
  refine congrArg₂ max ?_ rfl
  refine (addf_apply _ _ _).trans ?_
  refine congrArg₂ (· + ·) ?_ ?_
  · exact matmul_adj_s1 (truncf .bf16 v9 bitsLt_bf16_f32) v11 p k
  · refine (broadcastTo_1b_ab_apply _ broadcasts_S1x128_S400x128 p k).trans ?_
    rw [shapeCast_self]

/-- The second support's block at entry (p, c). -/
theorem pay2_apply (v9 : Vec Ideal S400x10000 .f32) (v11 : Vec Ideal S10000x128 .bf16) (v13 : Vec Ideal S1x128 .f32)
    (v19 : Vec Ideal S128x64 .f32) (p : Fin 400) (c : Fin 64) :
    k0_pay2 (F := Ideal) v9 v11 v13 v19 (ix2 p c)
      = Cert.Spec.rowSupport2 (fun q => v9 (ix2 p q)) v11 (fun k => v13 (ix2 0 k)) v19 c := by
  show shapeCast S400x64 (truncf .bf16 (matmul (φ₁ := .f32) (φ₂ := .f32) dot_S400x128_S128x64_S400x64_1_0_0_1_n_n none (hiddenBlk v9 v11 v13) v19
    (constant (F := Ideal) S400x64 .f32 0x00000000#32)) bitsLt_bf16_f32) shapeCasts_S400x64_S400x64 (ix2 p c) = _
  unfold Cert.Spec.rowSupport2
  refine (congrFun (shapeCast_self _ shapeCasts_S400x64_S400x64) (ix2 p c)).trans ?_
  refine (matmul_h_w2 (φ₁ := .f32) (φ₂ := .f32) (hiddenBlk v9 v11 v13) v19 p c).trans ?_
  refine Finset.sum_congr rfl fun k _ => ?_
  rw [hiddenBlk_apply]

/-! ## The block of logits -/

/-- One 400-row block of the logits as the body computes it: the block of the adjacency times the second support, plus
    the bias row on every row. -/
def logitsBlk (v9 : FVec Ideal S400x10000 .f32) (v11 : FVec Ideal S10000x64 .bf16) (v13 : FVec Ideal S1x64 .f32) :
    FVec Ideal S400x64 .f32 :=
  addf (matmul dot_S400x10000_S10000x64_S400x64_1_0_0_1_n_n none (truncf .bf16 v9 bitsLt_bf16_f32) v11
      (constant (F := Ideal) S400x64 .f32 0x00000000#32))
    (broadcastTo S400x64 (shapeCast S1x64 v13 shapeCasts_S1x64_S1x64) broadcasts_S1x64_S400x64)

/-- Entry (p, c) of the block is the row's logit. -/
theorem logitsBlk_apply (v9 : FVec Ideal S400x10000 .f32) (v11 : FVec Ideal S10000x64 .bf16) (v13 : FVec Ideal S1x64 .f32)
    (p : Fin 400) (c : Fin 64) :
    logitsBlk v9 v11 v13 (ix2 p c)
      = Cert.Spec.rowLogits (fun q => v9 (ix2 p q)) v11 (fun k => v13 (ix2 0 k)) c := by
  unfold logitsBlk Cert.Spec.rowLogits
  refine (addf_apply _ _ _).trans ?_
  refine congrArg₂ (· + ·) ?_ ?_
  · exact matmul_adj_s2 (truncf .bf16 v9 bitsLt_bf16_f32) v11 p c
  · refine (broadcastTo_1b_ab_apply _ broadcasts_S1x64_S400x64 p c).trans ?_
    rw [shapeCast_self]

/-- The row maxima of the block, as the body's lane reduction. -/
def rowMaxBlk (v9 : FVec Ideal S400x10000 .f32) (v11 : FVec Ideal S10000x64 .bf16) (v13 : FVec Ideal S1x64 .f32) :
    FVec Ideal S400 .f32 :=
  multiReduction (F := Ideal) .maximumf [1] S400 (logitsBlk v9 v11 v13) 0xFF800000#32 reduces_S400x64_S400 (.inl rfl) rfl

/-- Row `p`'s maximum is the specification's fold of `max` over the row's 64 logits. -/
theorem rowMaxBlk_apply (v9 : FVec Ideal S400x10000 .f32) (v11 : FVec Ideal S10000x64 .bf16) (v13 : FVec Ideal S1x64 .f32)
    (p : Fin 400) :
    rowMaxBlk v9 v11 v13 (ix1 p)
      = Cert.Spec.rowMax (Cert.Spec.rowLogits (fun q => v9 (ix2 p q)) v11 (fun k => v13 (ix2 0 k))) := by
  unfold rowMaxBlk Cert.Spec.rowMax
  refine (Ideal.multiReduction_maximumf_single (logitsBlk v9 v11 v13) 0xFF800000#32 reduces_S400x64_S400 (.inl rfl) rfl (ix1 p)).trans ?_
  refine congrArg (Finset.fold max (Cert.Spec.negInf32) · Finset.univ) ?_
  funext c
  have e : reduces_S400x64_S400.lift (ix1 p) c = ix2 p c := by
    funext a
    match a with
    | ⟨0, _⟩ => exact Fin.ext rfl
    | ⟨1, _⟩ => exact Fin.ext rfl
  show logitsBlk v9 v11 v13 (reduces_S400x64_S400.lift (ix1 p) c) = _
  rw [e]
  exact logitsBlk_apply v9 v11 v13 p c

/-- The lane reduction's inserted index: row `p` with column `c`. -/
theorem lift_row (p : Fin 400) (c : Fin 64) : reduces_S400x64_S400.lift (ix1 p) c = ix2 p c := by
  funext a
  match a with
  | ⟨0, _⟩ => exact Fin.ext rfl
  | ⟨1, _⟩ => exact Fin.ext rfl

/-! ## The shifted logits, their exponentials and the row sums -/

/-- The shifted block is the block of logits less its row maxima, kept as a column and spread over the 64 columns. -/
theorem pay3_eq (v9 : FVec Ideal S400x10000 .f32) (v11 : FVec Ideal S10000x64 .bf16) (v13 : FVec Ideal S1x64 .f32) :
    k0_pay3 (F := Ideal) v9 v11 v13
      = subf (logitsBlk v9 v11 v13)
          (broadcastTo S400x64 (shapeCast S400x1 (rowMaxBlk v9 v11 v13) shapeCasts_S400_S400x1) broadcasts_S400x1_S400x64) := rfl

/-- Entry (p, c) of the shifted block: the row's logit less the row's maximum. -/
theorem pay3_apply (v9 : FVec Ideal S400x10000 .f32) (v11 : FVec Ideal S10000x64 .bf16) (v13 : FVec Ideal S1x64 .f32)
    (p : Fin 400) (c : Fin 64) :
    k0_pay3 (F := Ideal) v9 v11 v13 (ix2 p c)
      = Cert.Spec.rowShifted (Cert.Spec.rowLogits (fun q => v9 (ix2 p q)) v11 (fun k => v13 (ix2 0 k))) c := by
  rw [pay3_eq]
  unfold Cert.Spec.rowShifted
  refine (subf_apply _ _ _).trans ?_
  refine congrArg₂ (· - ·) (logitsBlk_apply v9 v11 v13 p c) ?_
  refine (broadcastTo_a1_ab_apply _ broadcasts_S400x1_S400x64 p c).trans ?_
  refine (shapeCast_a_a1_apply _ shapeCasts_S400_S400x1 p 0).trans ?_
  exact rowMaxBlk_apply v9 v11 v13 p

/-- Entry (p, c) of the exponentials. -/
theorem pay4_apply (v9 : FVec Ideal S400x10000 .f32) (v11 : FVec Ideal S10000x64 .bf16) (v13 : FVec Ideal S1x64 .f32)
    (p : Fin 400) (c : Fin 64) :
    k0_pay4 (F := Ideal) v9 v11 v13 (ix2 p c)
      = Ideal.exp (Cert.Spec.rowShifted (Cert.Spec.rowLogits (fun q => v9 (ix2 p q)) v11 (fun k => v13 (ix2 0 k))) c) :=
  congrArg Ideal.exp (pay3_apply v9 v11 v13 p c)

/-- The column of row sums is the lane sum of the exponentials, kept as a column. -/
theorem pay5_eq (v9 : FVec Ideal S400x10000 .f32) (v11 : FVec Ideal S10000x64 .bf16) (v13 : FVec Ideal S1x64 .f32) :
    k0_pay5 (F := Ideal) v9 v11 v13
      = shapeCast S400x1 (multiReduction (F := Ideal) .add [1] S400 (k0_pay4 (F := Ideal) v9 v11 v13) 0x00000000#32
          reduces_S400x64_S400 (.inl rfl) rfl) shapeCasts_S400_S400x1 := rfl

/-- Row `p` of the column of sums: the sum of the row's 64 exponentials. -/
theorem pay5_apply (v9 : FVec Ideal S400x10000 .f32) (v11 : FVec Ideal S10000x64 .bf16) (v13 : FVec Ideal S1x64 .f32)
    (p : Fin 400) (u : Fin 1) :
    k0_pay5 (F := Ideal) v9 v11 v13 (ix2 p u)
      = Cert.Spec.rowExpSum (Cert.Spec.rowLogits (fun q => v9 (ix2 p q)) v11 (fun k => v13 (ix2 0 k))) := by
  rw [pay5_eq]
  unfold Cert.Spec.rowExpSum
  refine (shapeCast_a_a1_apply _ shapeCasts_S400_S400x1 p u).trans ?_
  refine (Ideal.multiReduction_add_single (k0_pay4 (F := Ideal) v9 v11 v13) 0x00000000#32 reduces_S400x64_S400
    (.inl rfl) rfl (ix1 p)).trans ?_
  refine Finset.sum_congr rfl fun c _ => ?_
  exact (congrArg (k0_pay4 (F := Ideal) v9 v11 v13) (lift_row p c)).trans (pay4_apply v9 v11 v13 p c)

/-! ## The two results -/

/-- The softmax block at entry (p, c). -/
theorem pay6_apply (v9 : Vec Ideal S400x10000 .f32) (v11 : Vec Ideal S10000x64 .bf16) (v13 : Vec Ideal S1x64 .f32)
    (p : Fin 400) (c : Fin 64) :
    k0_pay6 (F := Ideal) v9 v11 v13 (ix2 p c)
      = Cert.Spec.rowSoftmax (Cert.Spec.rowLogits (fun q => v9 (ix2 p q)) v11 (fun k => v13 (ix2 0 k))) c := by
  show divf (k0_pay4 (F := Ideal) v9 v11 v13)
    (broadcastTo S400x64 (k0_pay5 (F := Ideal) v9 v11 v13) broadcasts_S400x1_S400x64) (ix2 p c) = _
  unfold Cert.Spec.rowSoftmax
  refine (divf_apply _ _ _).trans ?_
  refine congrArg₂ Ideal.div (pay4_apply v9 v11 v13 p c) ?_
  refine (broadcastTo_a1_ab_apply _ broadcasts_S400x1_S400x64 p c).trans ?_
  exact pay5_apply v9 v11 v13 p 0

/-- The log-softmax block at entry (p, c). -/
theorem pay7_apply (v9 : Vec Ideal S400x10000 .f32) (v11 : Vec Ideal S10000x64 .bf16) (v13 : Vec Ideal S1x64 .f32)
    (p : Fin 400) (c : Fin 64) :
    k0_pay7 (F := Ideal) v9 v11 v13 (ix2 p c)
      = Cert.Spec.rowLogSoftmax (Cert.Spec.rowLogits (fun q => v9 (ix2 p q)) v11 (fun k => v13 (ix2 0 k))) c := by
  show subf (k0_pay3 (F := Ideal) v9 v11 v13)
    (broadcastTo S400x64 (log (k0_pay5 (F := Ideal) v9 v11 v13)) broadcasts_S400x1_S400x64) (ix2 p c) = _
  unfold Cert.Spec.rowLogSoftmax
  refine (subf_apply _ _ _).trans ?_
  refine congrArg₂ (· - ·) (pay3_apply v9 v11 v13 p c) ?_
  refine (broadcastTo_a1_ab_apply _ broadcasts_S400x1_S400x64 p c).trans ?_
  exact congrArg Ideal.log (pay5_apply v9 v11 v13 p 0)

end Cert.KernelIdeal.PayloadValues

end
-- ==== Proof.KernelIdeal.Supports.lean ====
import proofs.«106749_g48206712930318_cont_8to1_c_213_4_alg».proof.Proof.KernelIdeal.Carried
import proofs.«106749_g48206712930318_cont_8to1_c_213_4_alg».proof.Proof.KernelIdeal.Blocks
import proofs.«106749_g48206712930318_cont_8to1_c_213_4_alg».proof.Proof.KernelIdeal.PayloadValues
import proofs.«106749_g48206712930318_cont_8to1_c_213_4_alg».proof.Proof.Spec

/-! # The carried arrays and the result blocks as the specification's arrays

    The first carried array is the first support of the features and the first weight matrix: every entry is the
    body's product at that entry, and the two blocks the first point finds are the whole arrays. Row `r` of the second
    carried array is computed at point `r / 400` from row `r mod 400` of that point's block of the adjacency, which is
    row `r` of the adjacency; hence the array is the second support. At a second-half point `t` the block of the
    adjacency is row block `t - 25`, so row `p` of the two result blocks is row `(t - 25) · 400 + p` of the log-softmax
    and of the softmax of the logits. -/

set_option maxRecDepth 16384

noncomputable section

namespace Cert.KernelIdeal.Supports

open Cert.KernelIdeal Cert.KernelIdeal.Gen Idealize.ShloMosaic Idealize.ShloMosaic.ValueIdx Idealize.SL.Sem
open Idealize.ShloMosaic.TcCoe

/-! ## Rows and blocks of rows -/

/-- A row's place in its block of 400 rows. -/
theorem rowLocal_eq (j : S10000x64.Idx) (h : ∀ a : Fin 2, (![400 * ((j 0).val / 400), 0] : Fin 2 → ℕ) a ≤ (j a).val
      ∧ (j a).val < (![400 * ((j 0).val / 400), 0] : Fin 2 → ℕ) a + S400x64.size a) :
    Rect.unitLocal (s := S10000x64) (off := ![400 * ((j 0).val / 400), 0]) (size := S400x64.size) j h
      = ix2 (⟨(j 0).val % 400, Nat.mod_lt _ (by decide)⟩ : Fin 400) (j 1) := by
  funext a
  refine Fin.ext ?_
  match a with
  | ⟨0, _⟩ => show (j 0).val - 400 * ((j 0).val / 400) = (j 0).val % 400; omega
  | ⟨1, _⟩ => show (j 1).val - 0 = (j 1).val; omega

/-- Row `p` of the block of a second-half point `t` is a row of the array. -/
theorem outRow_lt (t : Fin cfg0.N) (p : Fin 400) : (t.val - 25) * 400 + p.val < 10000 := by
  have h1 : t.val < cfg0.N := t.isLt
  have h2 : cfg0.N = 50 := N_0
  have h3 := p.isLt
  omega

variable (m : (ℓ : Loc nD τ sig) → Buf (Elt Ideal) ℓ)

/-! ## The two supports -/

/-- The first carried array is the first support. -/
theorem sup1_eq (c : Dev nD) : Body.sup1 (F := Ideal) m c = Cert.Spec.s1Arr (m ((c : Thread nD τ).loc main_arg0)) (m ((c : Thread nD τ).loc main_arg2)) := by
  funext j
  obtain ⟨r, h, rfl⟩ : ∃ (r : Fin 10000) (h : Fin 128), j = ix2 r h := ⟨j 0, j 1, eq_ix2 j⟩
  unfold Body.sup1
  refine (PayloadValues.pay1_apply (iblk m c 0 Body.firstPt) (iblk m c 2 Body.firstPt) r h).trans ?_
  show Cert.Spec.support1 _ _ r h = Cert.Spec.support1 (m ((c : Thread nD τ).loc main_arg0)) (m ((c : Thread nD τ).loc main_arg2)) r h
  unfold Cert.Spec.support1
  refine Finset.sum_congr rfl fun k _ => ?_
  exact congrArg₂ (· * ·) (Blocks.blk_x m c Body.firstPt (ix2 r k)) (Blocks.blk_w1 m c Body.firstPt (ix2 k h))

/-- The second carried array is the second support. -/
theorem sup2_eq (c : Dev nD) :
    Body.sup2 (F := Ideal) m c = Cert.Spec.s2Arr (m ((c : Thread nD τ).loc main_arg0)) (m ((c : Thread nD τ).loc main_arg1)) (m ((c : Thread nD τ).loc main_arg2)) (fun k : Fin 128 => m ((c : Thread nD τ).loc main_arg3) (ix1 k)) (m ((c : Thread nD τ).loc main_arg4)) := by
  funext j
  have hj : (j 0).val < 10000 := (j 0).isLt
  unfold Body.sup2
  refine (congrArg (k0_pay2 (F := Ideal) (iblk m c 1 (Body.rowPoint j)) (Body.sup1 m c) (iblk m c 3 (Body.rowPoint j))
    (iblk m c 4 (Body.rowPoint j))) (rowLocal_eq j _)).trans ?_
  refine (PayloadValues.pay2_apply (iblk m c 1 (Body.rowPoint j)) (Body.sup1 m c) (iblk m c 3 (Body.rowPoint j))
    (iblk m c 4 (Body.rowPoint j)) ⟨(j 0).val % 400, Nat.mod_lt _ (by decide)⟩ (j 1)).trans ?_
  have harow : (fun q : Fin 10000 => iblk m c 1 (Body.rowPoint j) (ix2 (⟨(j 0).val % 400, Nat.mod_lt _ (by decide)⟩ : Fin 400) q))
      = fun q => m ((c : Thread nD τ).loc main_arg1) (ix2 (j 0) q) := funext fun q =>
    (Blocks.blk_adj m c (Body.rowPoint j) ⟨(j 0).val % 400, Nat.mod_lt _ (by decide)⟩ q).trans
      (congrArg (fun r : Fin 10000 => m ((c : Thread nD τ).loc main_arg1) (ix2 r q))
        (Fin.ext (by show (j 0).val / 400 % 25 * 400 + (j 0).val % 400 = (j 0).val; omega)))
  have hb1 : (fun k : Fin 128 => iblk m c 3 (Body.rowPoint j) (ix2 0 k)) = (fun k : Fin 128 => m ((c : Thread nD τ).loc main_arg3) (ix1 k)) :=
    funext fun k => Blocks.blk_b1 m c (Body.rowPoint j) k
  have hw2 : iblk m c 4 (Body.rowPoint j) = m ((c : Thread nD τ).loc main_arg4) := funext fun y => Blocks.blk_w2 m c (Body.rowPoint j) y
  show Cert.Spec.rowSupport2 _ _ _ _ (j 1)
    = Cert.Spec.rowSupport2 (fun q => m ((c : Thread nD τ).loc main_arg1) (ix2 (j 0) q)) (Cert.Spec.s1Arr (m ((c : Thread nD τ).loc main_arg0)) (m ((c : Thread nD τ).loc main_arg2))) (fun k : Fin 128 => m ((c : Thread nD τ).loc main_arg3) (ix1 k)) (m ((c : Thread nD τ).loc main_arg4)) (j 1)
  rw [harow, hb1, hw2, sup1_eq m c]

/-! ## The result blocks at a second-half point -/

/-- The block of the adjacency at a second-half point, row by row. -/
theorem adjRow_eq (c : Dev nD) (t : Fin cfg0.N) (ht : 25 ≤ t.val) (p : Fin 400) :
    (fun k : Fin 10000 => iblk m c 1 t (ix2 p k))
      = fun k => m ((c : Thread nD τ).loc main_arg1) (ix2 (⟨(t.val - 25) * 400 + p.val, outRow_lt t p⟩ : Fin 10000) k) := by
  have h1 : t.val < cfg0.N := t.isLt
  have h2 : cfg0.N = 50 := N_0
  exact funext fun k => (Blocks.blk_adj m c t p k).trans
    (congrArg (fun r : Fin 10000 => m ((c : Thread nD τ).loc main_arg1) (ix2 r k)) (Fin.ext (by show t.val % 25 * 400 + p.val = (t.val - 25) * 400 + p.val; omega)))

/-- The log-softmax block a second-half point leaves, entry by entry. -/
theorem out6_block (c : Dev nD) (t : Fin cfg0.N) (ht : 25 ≤ t.val) (p : Fin 400) (q : Fin 64) :
    k0_pay7 (F := Ideal) (iblk m c 1 t) (Body.sup2 m c) (iblk m c 5 t) (ix2 p q)
      = Cert.Spec.logSoftmaxArr (m ((c : Thread nD τ).loc main_arg0)) (m ((c : Thread nD τ).loc main_arg1)) (m ((c : Thread nD τ).loc main_arg2)) (fun k : Fin 128 => m ((c : Thread nD τ).loc main_arg3) (ix1 k)) (m ((c : Thread nD τ).loc main_arg4)) (fun k : Fin 64 => m ((c : Thread nD τ).loc main_arg5) (ix1 k))
          (ix2 (⟨(t.val - 25) * 400 + p.val, outRow_lt t p⟩ : Fin 10000) q) := by
  refine (PayloadValues.pay7_apply (iblk m c 1 t) (Body.sup2 m c) (iblk m c 5 t) p q).trans ?_
  have hb2 : (fun k : Fin 64 => iblk m c 5 t (ix2 0 k)) = (fun k : Fin 64 => m ((c : Thread nD τ).loc main_arg5) (ix1 k)) := funext fun k => Blocks.blk_b2 m c t k
  show Cert.Spec.rowLogSoftmax (Cert.Spec.rowLogits _ _ _) q
    = Cert.Spec.rowLogSoftmax (Cert.Spec.rowLogits
        (fun k => m ((c : Thread nD τ).loc main_arg1) (ix2 (⟨(t.val - 25) * 400 + p.val, outRow_lt t p⟩ : Fin 10000) k))
        (Cert.Spec.s2Arr (m ((c : Thread nD τ).loc main_arg0)) (m ((c : Thread nD τ).loc main_arg1)) (m ((c : Thread nD τ).loc main_arg2)) (fun k : Fin 128 => m ((c : Thread nD τ).loc main_arg3) (ix1 k)) (m ((c : Thread nD τ).loc main_arg4))) (fun k : Fin 64 => m ((c : Thread nD τ).loc main_arg5) (ix1 k))) q
  rw [adjRow_eq m c t ht p, hb2, sup2_eq m c]

/-- The softmax block a second-half point leaves, entry by entry. -/
theorem out7_block (c : Dev nD) (t : Fin cfg0.N) (ht : 25 ≤ t.val) (p : Fin 400) (q : Fin 64) :
    k0_pay6 (F := Ideal) (iblk m c 1 t) (Body.sup2 m c) (iblk m c 5 t) (ix2 p q)
      = Cert.Spec.softmaxArr (m ((c : Thread nD τ).loc main_arg0)) (m ((c : Thread nD τ).loc main_arg1)) (m ((c : Thread nD τ).loc main_arg2)) (fun k : Fin 128 => m ((c : Thread nD τ).loc main_arg3) (ix1 k)) (m ((c : Thread nD τ).loc main_arg4)) (fun k : Fin 64 => m ((c : Thread nD τ).loc main_arg5) (ix1 k))
          (ix2 (⟨(t.val - 25) * 400 + p.val, outRow_lt t p⟩ : Fin 10000) q) := by
  refine (PayloadValues.pay6_apply (iblk m c 1 t) (Body.sup2 m c) (iblk m c 5 t) p q).trans ?_
  have hb2 : (fun k : Fin 64 => iblk m c 5 t (ix2 0 k)) = (fun k : Fin 64 => m ((c : Thread nD τ).loc main_arg5) (ix1 k)) := funext fun k => Blocks.blk_b2 m c t k
  show Cert.Spec.rowSoftmax (Cert.Spec.rowLogits _ _ _) q
    = Cert.Spec.rowSoftmax (Cert.Spec.rowLogits
        (fun k => m ((c : Thread nD τ).loc main_arg1) (ix2 (⟨(t.val - 25) * 400 + p.val, outRow_lt t p⟩ : Fin 10000) k))
        (Cert.Spec.s2Arr (m ((c : Thread nD τ).loc main_arg0)) (m ((c : Thread nD τ).loc main_arg1)) (m ((c : Thread nD τ).loc main_arg2)) (fun k : Fin 128 => m ((c : Thread nD τ).loc main_arg3) (ix1 k)) (m ((c : Thread nD τ).loc main_arg4))) (fun k : Fin 64 => m ((c : Thread nD τ).loc main_arg5) (ix1 k))) q
  rw [adjRow_eq m c t ht p, hb2, sup2_eq m c]

end Cert.KernelIdeal.Supports

end
-- ==== Proof.KernelIdeal.Results.lean ====
import proofs.«106749_g48206712930318_cont_8to1_c_213_4_alg».proof.Proof.KernelIdeal.Obligation
import proofs.«106749_g48206712930318_cont_8to1_c_213_4_alg».proof.Proof.KernelIdeal.Supports
import proofs.«106749_g48206712930318_cont_8to1_c_213_4_alg».proof.Proof.Spec
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
/-! The two result arrays after the run, at the extended reals: every block of 400 rows the second-half points write
    back is that block of the log-softmax (first result) or softmax (second result) of the logits, and the 25 blocks
    tile the 10000 rows, so each result array ends as the whole specified array. -/

local notation "𝕄" => MT nD τ sig Unit (Elt Ideal) ℕ (UR sig nD τ) ℕ

variable (m : (ℓ : Loc nD τ sig) → Buf (Elt Ideal) ℓ) (ρ : Dev nD → PrngReg)

/-- The first result, the row-wise log-softmax of the logits, as a function of the launch contents of the arguments. -/
def logSoftmaxOf (c : Dev nD) : Buf (Elt Ideal) ((c.tc : Thread nD τ).loc main_v2_0) :=
  Cert.Spec.logSoftmaxArr (m ((c.tc : Thread nD τ).loc main_arg0)) (m ((c.tc : Thread nD τ).loc main_arg1)) (m ((c.tc : Thread nD τ).loc main_arg2))
    (fun k => m ((c.tc : Thread nD τ).loc main_arg3) (ix1 k)) (m ((c.tc : Thread nD τ).loc main_arg4)) (fun k => m ((c.tc : Thread nD τ).loc main_arg5) (ix1 k))

/-- The second result, the row-wise softmax. -/
def softmaxOf (c : Dev nD) : Buf (Elt Ideal) ((c.tc : Thread nD τ).loc main_v2_1) :=
  Cert.Spec.softmaxArr (m ((c.tc : Thread nD τ).loc main_arg0)) (m ((c.tc : Thread nD τ).loc main_arg1)) (m ((c.tc : Thread nD τ).loc main_arg2))
    (fun k => m ((c.tc : Thread nD τ).loc main_arg3) (ix1 k)) (m ((c.tc : Thread nD τ).loc main_arg4)) (fun k => m ((c.tc : Thread nD τ).loc main_arg5) (ix1 k))

/-- The output windows are written back exactly at the second-half points, where their block index is the point less 25. -/
theorem flush6_iff : ∀ t : Fin cfg0.N, (cfg0.win 6).flush t = true ↔ 25 ≤ t.val :=
  (by decide +kernel : ∀ t : Fin grid0.N, win0_6.flush t = true ↔ 25 ≤ t.val)
theorem flush7_iff : ∀ t : Fin cfg0.N, (cfg0.win 7).flush t = true ↔ 25 ≤ t.val :=
  (by decide +kernel : ∀ t : Fin grid0.N, win0_7.flush t = true ↔ 25 ≤ t.val)
theorem index6 : ∀ t : Fin cfg0.N, 25 ≤ t.val → win0_6.index t (0 : Fin 2) = t.val - 25 ∧ win0_6.index t (1 : Fin 2) = 0 :=
  (by decide +kernel : ∀ t : Fin grid0.N, 25 ≤ t.val → win0_6.index t (0 : Fin 2) = t.val - 25 ∧ win0_6.index t (1 : Fin 2) = 0)
theorem index7 : ∀ t : Fin cfg0.N, 25 ≤ t.val → win0_7.index t (0 : Fin 2) = t.val - 25 ∧ win0_7.index t (1 : Fin 2) = 0 :=
  (by decide +kernel : ∀ t : Fin grid0.N, 25 ≤ t.val → win0_7.index t (0 : Fin 2) = t.val - 25 ∧ win0_7.index t (1 : Fin 2) = 0)

theorem row_ok (t : Fin cfg0.N) (ht : 25 ≤ t.val) (p : Fin 400) : (t.val - 25) * 400 + p.val < 10000 := by
  have hN : t.val < 50 := lt_of_lt_of_eq t.isLt (show cfg0.N = 50 from N_0)
  have := p.isLt; omega

/-- Where entry `(p, q)` of point `t`'s block sits in the first result array. -/
theorem emb6 (t : Fin cfg0.N) (ht : 25 ≤ t.val) (p : Fin 400) (q : Fin 64) :
    ((cfg0.win 6).blk t).view.emb (ix2 p q) = ix2 ⟨(t.val - 25) * 400 + p.val, row_ok t ht p⟩ q := by
  obtain ⟨e0, e1⟩ := index6 t ht
  funext a; apply Fin.ext
  match a with
  | ⟨0, _⟩ => show win0_6.index t (0 : Fin 2) * 400 + 1 * p.val = (t.val - 25) * 400 + p.val; omega
  | ⟨1, _⟩ => show win0_6.index t (1 : Fin 2) * 64 + 1 * q.val = q.val; omega
theorem emb7 (t : Fin cfg0.N) (ht : 25 ≤ t.val) (p : Fin 400) (q : Fin 64) :
    ((cfg0.win 7).blk t).view.emb (ix2 p q) = ix2 ⟨(t.val - 25) * 400 + p.val, row_ok t ht p⟩ q := by
  obtain ⟨e0, e1⟩ := index7 t ht
  funext a; apply Fin.ext
  match a with
  | ⟨0, _⟩ => show win0_7.index t (0 : Fin 2) * 400 + 1 * p.val = (t.val - 25) * 400 + p.val; omega
  | ⟨1, _⟩ => show win0_7.index t (1 : Fin 2) * 64 + 1 * q.val = q.val; omega

/-- What a second-half point writes back into the first result is its block of the log-softmax array. -/
theorem flushed6_eq (c : Dev nD) (t : Fin cfg0.N) (hf : (cfg0.win 6).flush t = true) :
    (dats m 0 c).flushed 6 t = ((cfg0.win 6).blk t).view.read (Elt Ideal) (logSoftmaxOf m c) := by
  have ht : 25 ≤ t.val := (flush6_iff t).mp hf
  show (cfg0.win 6).cut (grid0.coords t) ((dats m 0 c).after 6 t) = _
  rw [after6]
  funext y
  obtain ⟨p, q, rfl⟩ : ∃ (p : Fin 400) (q : Fin 64), y = ix2 p q := ⟨y 0, y 1, eq_ix2 y⟩
  show k0_pay7 (F := Ideal) (iblk m c 1 t) (sup2 m c) (iblk m c 5 t) (ix2 p q)
    = logSoftmaxOf m c (((cfg0.win 6).blk t).view.emb (ix2 p q))
  rw [emb6 t ht p q]
  exact Cert.KernelIdeal.Supports.out6_block m c t ht p q
theorem flushed7_eq (c : Dev nD) (t : Fin cfg0.N) (hf : (cfg0.win 7).flush t = true) :
    (dats m 0 c).flushed 7 t = ((cfg0.win 7).blk t).view.read (Elt Ideal) (softmaxOf m c) := by
  have ht : 25 ≤ t.val := (flush7_iff t).mp hf
  show (cfg0.win 7).cut (grid0.coords t) ((dats m 0 c).after 7 t) = _
  rw [after7]
  funext y
  obtain ⟨p, q, rfl⟩ : ∃ (p : Fin 400) (q : Fin 64), y = ix2 p q := ⟨y 0, y 1, eq_ix2 y⟩
  show k0_pay6 (F := Ideal) (iblk m c 1 t) (sup2 m c) (iblk m c 5 t) (ix2 p q)
    = softmaxOf m c (((cfg0.win 7).blk t).view.emb (ix2 p q))
  rw [emb7 t ht p q]
  exact Cert.KernelIdeal.Supports.out7_block m c t ht p q

theorem mem_blk6 (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v2_0).slice (win0_6.rect t)).set ↔ _
  rw [View.set_slice_whole, Rect.mem_set_unit]
  exact Iff.rfl
theorem mem_blk7 (t : Fin cfg0.N) (i : S10000x64.Idx) :
    i ∈ ((cfg0.win 7).blk t).view.set ↔ ∀ a : Fin 2, win0_7.index t a * S400x64.size a ≤ (i a).val ∧ (i a).val < win0_7.index t a * S400x64.size a + S400x64.size a := by
  show i ∈ ((View.whole main_v2_1).slice (win0_7.rect t)).set ↔ _
  rw [View.set_slice_whole, Rect.mem_set_unit]
  exact Iff.rfl

theorem blockPoint_lt (i : S10000x64.Idx) : (i 0).val / 400 + 25 < cfg0.N := by
  have h : (i 0).val < 10000 := (i 0).isLt
  exact lt_of_lt_of_eq (by omega : (i 0).val / 400 + 25 < 50) (show (50 : ℕ) = cfg0.N from N_0.symm)

/-- Every row of a result lies in the block some second-half point writes back: row `r` in point `r / 400 + 25`'s. -/
theorem cover6 (i : S10000x64.Idx) : ∃ t : Fin cfg0.N, (cfg0.win 6).flush t = true ∧ i ∈ ((cfg0.win 6).blk t).view.set := by
  have h0 : (i 0).val < 10000 := (i 0).isLt
  have h1 : (i 1).val < 64 := (i 1).isLt
  refine ⟨⟨(i 0).val / 400 + 25, blockPoint_lt i⟩, (flush6_iff _).mpr (by show 25 ≤ (i 0).val / 400 + 25; omega), ?_⟩
  obtain ⟨e0, e1⟩ := index6 ⟨(i 0).val / 400 + 25, blockPoint_lt i⟩ (by show 25 ≤ (i 0).val / 400 + 25; omega)
  have e0' : win0_6.index ⟨(i 0).val / 400 + 25, blockPoint_lt i⟩ (0 : Fin 2) = (i 0).val / 400 := by rw [e0]; show (i 0).val / 400 + 25 - 25 = _; omega
  rw [mem_blk6]
  intro a
  match a with
  | ⟨0, _⟩ => show win0_6.index _ (0 : Fin 2) * 400 ≤ (i 0).val ∧ (i 0).val < win0_6.index _ (0 : Fin 2) * 400 + 400; rw [e0']; omega
  | ⟨1, _⟩ => show win0_6.index _ (1 : Fin 2) * 64 ≤ (i 1).val ∧ (i 1).val < win0_6.index _ (1 : Fin 2) * 64 + 64; rw [e1]; omega
theorem cover7 (i : S10000x64.Idx) : ∃ t : Fin cfg0.N, (cfg0.win 7).flush t = true ∧ i ∈ ((cfg0.win 7).blk t).view.set := by
  have h0 : (i 0).val < 10000 := (i 0).isLt
  have h1 : (i 1).val < 64 := (i 1).isLt
  refine ⟨⟨(i 0).val / 400 + 25, blockPoint_lt i⟩, (flush7_iff _).mpr (by show 25 ≤ (i 0).val / 400 + 25; omega), ?_⟩
  obtain ⟨e0, e1⟩ := index7 ⟨(i 0).val / 400 + 25, blockPoint_lt i⟩ (by show 25 ≤ (i 0).val / 400 + 25; omega)
  have e0' : win0_7.index ⟨(i 0).val / 400 + 25, blockPoint_lt i⟩ (0 : Fin 2) = (i 0).val / 400 := by rw [e0]; show (i 0).val / 400 + 25 - 25 = _; omega
  rw [mem_blk7]
  intro a
  match a with
  | ⟨0, _⟩ => show win0_7.index _ (0 : Fin 2) * 400 ≤ (i 0).val ∧ (i 0).val < win0_7.index _ (0 : Fin 2) * 400 + 400; rw [e0']; omega
  | ⟨1, _⟩ => show win0_7.index _ (1 : Fin 2) * 64 ≤ (i 1).val ∧ (i 1).val < win0_7.index _ (1 : Fin 2) * 64 + 64; rw [e1]; omega

/-- The first result array after the run. -/
theorem final6 (c : Dev nD) : (dats m 0 c).arrAt 6 cfg0.N = logSoftmaxOf m c :=
  (dats m 0 c).arrAt_eq_of_cover 6 (logSoftmaxOf m c) (fun t hf => flushed6_eq m c t hf) cover6
/-- The second result array after the run. -/
theorem final7 (c : Dev nD) : (dats m 0 c).arrAt 7 cfg0.N = softmaxOf m c :=
  (dats m 0 c).arrAt_eq_of_cover 7 (softmaxOf m c) (fun t hf => flushed7_eq m c t hf) cover7

/-- The run, read: the two results at the specified arrays, the arguments unchanged. -/
theorem run : θ_run defs (onTc (τ := τ) (main (F := Ideal))) ⟨m, fun _ => 0, ρ⟩ (fun r => ∀ c : Dev nD,
      r.2.mem ((c.tc : Thread nD τ).loc main_v2_0) = logSoftmaxOf m c
      ∧ r.2.mem ((c.tc : Thread nD τ).loc main_v2_1) = softmaxOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Body

end
-- ==== Proof.ReferenceIsSpec.lean ====
import proofs.«106749_g48206712930318_cont_8to1_c_213_4_alg».proof.Proof.ReferenceRead
import proofs.«106749_g48206712930318_cont_8to1_c_213_4_alg».proof.Proof.Spec
import Idealize.ShloMosaic.Lib.ValueIdx
import Idealize.ShloMosaic.PureOps.Ideal.Laws

/-! The reference program computes the specification.

    Each stage of the reference, read at an index, is the corresponding row quantity of `Cert.Spec`: the first
    support is `x · W1`; the hidden layer is `max (adj · s1 + b1) 0`; the second support is `h · W2`; the logits are
    `adj · s2 + b2`; the row maximum folded from `-∞` absorbs the extra `max` with `-∞` the reference takes; and the
    two results are the row's log-softmax and softmax written through that maximum. -/

noncomputable section

namespace Cert.ReferenceIdeal.RefSpec

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-! ## The first support -/

/-- Entry `(r, h)` of the reference's first product is entry `(r, h)` of `x · W1`. -/
theorem v0_apply (r : Fin 10000) (h : Fin 128) :
    val_main_v0 (F := Ideal) x0 x2 (ix2 r h) = Cert.Spec.support1 x0 x2 r h := by
  rw [val_main_v0_apply]
  unfold Cert.Spec.support1
  refine Finset.sum_congr rfl fun k _ => ?_
  have e1 : lidx_main_v0 (ix2 r h) k = ix2 r k :=
    funext fun a => Fin.ext (by match a with | ⟨0, _⟩ => rfl | ⟨1, _⟩ => rfl)
  have e2 : ridx_main_v0 (ix2 r h) k = ix2 k h :=
    funext fun a => Fin.ext (by match a with | ⟨0, _⟩ => rfl | ⟨1, _⟩ => rfl)
  rw [e1, e2]

/-- The reference's first product is the first support as an array. -/
theorem v0_eq : val_main_v0 (F := Ideal) x0 x2 = Cert.Spec.s1Arr x0 x2 := by
  funext j
  obtain ⟨r, h, rfl⟩ : ∃ (r : Fin 10000) (h : Fin 128), j = ix2 r h := ⟨j 0, j 1, eq_ix2 j⟩
  exact v0_apply x0 x2 r h

/-! ## The hidden layer and the second support -/

/-- Entry `(r, k)` of the hidden layer: `max (Σ_q adj (r, q) · s1 (q, k) + b1 k) 0`. -/
theorem v6_apply (r : Fin 10000) (k : Fin 128) :
    val_main_v6 (F := Ideal) x0 x1 x2 x3 (ix2 r k)
      = max ((∑ q : Fin 10000, x1 (ix2 r q) * Cert.Spec.s1Arr x0 x2 (ix2 q k)) + x3 (ix1 k)) Cert.Spec.zero32 := by
  rw [val_main_v6_apply, val_main_v4_apply, val_main_v1_apply, val_main_v3_apply, val_main_v2_apply, val_main_v5_apply,
    val_main_cst_apply, v0_eq]
  have e1 : ∀ q : Fin 10000, lidx_main_v1 (ix2 r k) q = ix2 r q := fun q =>
    funext fun a => Fin.ext (by match a with | ⟨0, _⟩ => rfl | ⟨1, _⟩ => rfl)
  have e2 : ∀ q : Fin 10000, ridx_main_v1 (ix2 r k) q = ix2 q k := fun q =>
    funext fun a => Fin.ext (by match a with | ⟨0, _⟩ => rfl | ⟨1, _⟩ => rfl)
  have e3 : idx_main_v2 (idx_main_v3 (ix2 r k)) = ix1 k :=
    funext fun a => Fin.ext (by match a with | ⟨0, _⟩ => rfl)
  simp only [e1, e2, e3, Ideal.maximumf_def, Ideal.addf_def, Ideal.ofBits_def]

/-- Entry `(r, c)` of the reference's second support is the row's second support. -/
theorem v7_apply (r : Fin 10000) (c : Fin 64) :
    val_main_v7 (F := Ideal) x0 x1 x2 x3 x4 (ix2 r c)
      = Cert.Spec.rowSupport2 (fun q => x1 (ix2 r q)) (Cert.Spec.s1Arr x0 x2) (fun k => x3 (ix1 k)) x4 c := by
  rw [val_main_v7_apply]
  unfold Cert.Spec.rowSupport2
  refine Finset.sum_congr rfl fun k _ => ?_
  have e1 : lidx_main_v7 (ix2 r c) k = ix2 r k :=
    funext fun a => Fin.ext (by match a with | ⟨0, _⟩ => rfl | ⟨1, _⟩ => rfl)
  have e2 : ridx_main_v7 (ix2 r c) k = ix2 k c :=
    funext fun a => Fin.ext (by match a with | ⟨0, _⟩ => rfl | ⟨1, _⟩ => rfl)
  rw [e1, e2, v6_apply]

/-- The reference's second support is the second support as an array. -/
theorem v7_eq : val_main_v7 (F := Ideal) x0 x1 x2 x3 x4 = Cert.Spec.s2Arr x0 x1 x2 (fun k => x3 (ix1 k)) x4 := by
  funext j
  obtain ⟨r, c, rfl⟩ : ∃ (r : Fin 10000) (c : Fin 64), j = ix2 r c := ⟨j 0, j 1, eq_ix2 j⟩
  exact v7_apply x0 x1 x2 x3 x4 r c

/-! ## The logits -/

/-- Entry `(r, c)` of the reference's logits is entry `c` of row `r` of the logits. -/
theorem v11_apply (r : Fin 10000) (c : Fin 64) :
    val_main_v11 (F := Ideal) x0 x1 x2 x3 x4 x5 (ix2 r c)
      = Cert.Spec.logitsRow x0 x1 x2 (fun k => x3 (ix1 k)) x4 (fun k => x5 (ix1 k)) r c := by
  rw [val_main_v11_apply, val_main_v8_apply, val_main_v10_apply, val_main_v9_apply, v7_eq]
  unfold Cert.Spec.logitsRow Cert.Spec.rowLogits
  have e1 : ∀ q : Fin 10000, lidx_main_v8 (ix2 r c) q = ix2 r q := fun q =>
    funext fun a => Fin.ext (by match a with | ⟨0, _⟩ => rfl | ⟨1, _⟩ => rfl)
  have e2 : ∀ q : Fin 10000, ridx_main_v8 (ix2 r c) q = ix2 q c := fun q =>
    funext fun a => Fin.ext (by match a with | ⟨0, _⟩ => rfl | ⟨1, _⟩ => rfl)
  have e3 : idx_main_v9 (idx_main_v10 (ix2 r c)) = ix1 c :=
    funext fun a => Fin.ext (by match a with | ⟨0, _⟩ => rfl)
  simp only [e1, e2, e3, Ideal.addf_def]

/-! ## The row maximum -/

/-- Row `r` with the column `c` put back is `(r, c)`. -/
theorem lift_row (h : S10000x64.Reduces [1] S10000) (r : Fin 10000) (c : Fin (S10000x64.size 1)) :
    h.lift (ix1 r) c = ix2 r (⟨c.val, c.isLt⟩ : Fin 64) := by
  funext a; apply Fin.ext
  match a with | ⟨0, _⟩ => rfl | ⟨1, _⟩ => rfl

/-- A maximum-reduce from `-∞` along the columns is, at row `r`, the fold of `max` from `-∞` over that row. -/
theorem reduceMax_row (y : FVec Ideal S10000x64 .f32) (r : Fin 10000) :
    Host.reduce FloatOps.maximumf y (constant (F := Ideal) S_ .f32 0xFF800000#32) reducesTo_S10000x64_S10000_d1 h_S_ (ix1 r)
      = Cert.Spec.rowMax (fun c => y (ix2 r c)) := by
  have h : S10000x64.Reduces [1] S10000 := by decide
  rw [Host.reduce_eq_fold_single (FloatOps.maximumf (F := Ideal) (φ := .f32)) y _ reducesTo_S10000x64_S10000_d1 h h_S_]
  unfold Cert.Spec.rowMax
  have hf : (y ∘ h.lift (ix1 r)) = fun c : Fin 64 => y (ix2 r c) := funext fun c => congrArg y (lift_row h r c)
  exact congrArg (fun f => Finset.fold max Cert.Spec.negInf32 f (Finset.univ : Finset (Fin 64))) hf

/-- Taking the maximum with `-∞` once more changes nothing: the fold already starts there. -/
theorem max_negInf_rowMax (lg : Fin 64 → EReal) : max Cert.Spec.negInf32 (Cert.Spec.rowMax lg) = Cert.Spec.rowMax lg := by
  unfold Cert.Spec.rowMax
  exact max_eq_right ((Finset.le_fold_max _).2 (Or.inl le_rfl))

/-! ## The softmax result -/

theorem v13_apply (r : Fin 10000) :
    val_main_v13 (F := Ideal) x0 x1 x2 x3 x4 x5 (ix1 r) = Cert.Spec.rowMax (Cert.Spec.logitsRow x0 x1 x2 (fun k => x3 (ix1 k)) x4 (fun k => x5 (ix1 k)) r) := by
  unfold val_main_v13 val_main_cst_0
  rw [reduceMax_row]
  exact congrArg Cert.Spec.rowMax (funext fun c => v11_apply x0 x1 x2 x3 x4 x5 r c)

theorem v15_apply (r : Fin 10000) :
    val_main_v15 (F := Ideal) x0 x1 x2 x3 x4 x5 (ix1 r) = Cert.Spec.rowMax (Cert.Spec.logitsRow x0 x1 x2 (fun k => x3 (ix1 k)) x4 (fun k => x5 (ix1 k)) r) := by
  rw [val_main_v15_apply, val_main_v14_apply, val_main_cst_1_apply, v13_apply]
  exact max_negInf_rowMax _

theorem v18_apply (r : Fin 10000) (c : Fin 64) :
    val_main_v18 (F := Ideal) x0 x1 x2 x3 x4 x5 (ix2 r c) = Cert.Spec.rowShifted (Cert.Spec.logitsRow x0 x1 x2 (fun k => x3 (ix1 k)) x4 (fun k => x5 (ix1 k)) r) c := by
  rw [val_main_v18_apply, val_main_v17_apply, val_main_v16_apply, v11_apply]
  have e : idx_main_v16 (idx_main_v17 (ix2 r c)) = ix1 r := funext fun a => Fin.ext (by match a with | ⟨0, _⟩ => rfl)
  rw [e, v15_apply]
  rfl

theorem v19_apply (r : Fin 10000) (c : Fin 64) :
    val_main_v19 (F := Ideal) x0 x1 x2 x3 x4 x5 (ix2 r c) = Ideal.exp (Cert.Spec.rowShifted (Cert.Spec.logitsRow x0 x1 x2 (fun k => x3 (ix1 k)) x4 (fun k => x5 (ix1 k)) r) c) := by
  rw [val_main_v19_apply, v18_apply]
  rfl

theorem v20_apply (r : Fin 10000) :
    val_main_v20 (F := Ideal) x0 x1 x2 x3 x4 x5 (ix1 r) = Cert.Spec.rowExpSum (Cert.Spec.logitsRow x0 x1 x2 (fun k => x3 (ix1 k)) x4 (fun k => x5 (ix1 k)) r) := by
  rw [val_main_v20_apply, val_main_cst_2_apply]
  unfold Cert.Spec.rowExpSum
  have e : ∀ k : Fin 64, idx_main_v20 (ix1 r) k = ix2 r k := fun k => funext fun a => Fin.ext (by match a with | ⟨0, _⟩ => rfl | ⟨1, _⟩ => rfl)
  simp only [e, v19_apply, Ideal.ofBits_def, Ideal.ofBits_zero_f32, zero_add]

/-- Entry `(r, c)` of the reference's second result is the softmax of row `r` of the logits at `c`. -/
theorem softmax_apply (r : Fin 10000) (c : Fin 64) :
    val_main_v23 (F := Ideal) x0 x1 x2 x3 x4 x5 (ix2 r c) = Cert.Spec.rowSoftmax (Cert.Spec.logitsRow x0 x1 x2 (fun k => x3 (ix1 k)) x4 (fun k => x5 (ix1 k)) r) c := by
  rw [val_main_v23_apply, val_main_v22_apply, val_main_v21_apply, v19_apply]
  have e : idx_main_v21 (idx_main_v22 (ix2 r c)) = ix1 r := funext fun a => Fin.ext (by match a with | ⟨0, _⟩ => rfl)
  rw [e, v20_apply]
  rfl

/-! ## The log-softmax result -/

theorem c0_apply (r : Fin 10000) :
    val_main_call0_v0 (F := Ideal) x0 x1 x2 x3 x4 x5 (ix1 r) = Cert.Spec.rowMax (Cert.Spec.logitsRow x0 x1 x2 (fun k => x3 (ix1 k)) x4 (fun k => x5 (ix1 k)) r) := by
  unfold val_main_call0_v0 val_main_call0_cst
  rw [reduceMax_row]
  exact congrArg Cert.Spec.rowMax (funext fun c => v11_apply x0 x1 x2 x3 x4 x5 r c)

theorem c2_apply (r : Fin 10000) :
    val_main_call0_v2 (F := Ideal) x0 x1 x2 x3 x4 x5 (ix1 r) = Cert.Spec.rowMax (Cert.Spec.logitsRow x0 x1 x2 (fun k => x3 (ix1 k)) x4 (fun k => x5 (ix1 k)) r) := by
  rw [val_main_call0_v2_apply, val_main_call0_v1_apply, val_main_call0_cst_0_apply, c0_apply]
  exact max_negInf_rowMax _

theorem c5_apply (r : Fin 10000) (c : Fin 64) :
    val_main_call0_v5 (F := Ideal) x0 x1 x2 x3 x4 x5 (ix2 r c) = Cert.Spec.rowShifted (Cert.Spec.logitsRow x0 x1 x2 (fun k => x3 (ix1 k)) x4 (fun k => x5 (ix1 k)) r) c := by
  rw [val_main_call0_v5_apply, val_main_call0_v4_apply, val_main_call0_v3_apply, v11_apply]
  have e : idx_main_call0_v3 (idx_main_call0_v4 (ix2 r c)) = ix1 r := funext fun a => Fin.ext (by match a with | ⟨0, _⟩ => rfl)
  rw [e, c2_apply]
  rfl

theorem c6_apply (r : Fin 10000) (c : Fin 64) :
    val_main_call0_v6 (F := Ideal) x0 x1 x2 x3 x4 x5 (ix2 r c) = Ideal.exp (Cert.Spec.rowShifted (Cert.Spec.logitsRow x0 x1 x2 (fun k => x3 (ix1 k)) x4 (fun k => x5 (ix1 k)) r) c) := by
  rw [val_main_call0_v6_apply, c5_apply]
  rfl

theorem c7_apply (r : Fin 10000) :
    val_main_call0_v7 (F := Ideal) x0 x1 x2 x3 x4 x5 (ix1 r) = Cert.Spec.rowExpSum (Cert.Spec.logitsRow x0 x1 x2 (fun k => x3 (ix1 k)) x4 (fun k => x5 (ix1 k)) r) := by
  rw [val_main_call0_v7_apply, val_main_call0_cst_1_apply]
  unfold Cert.Spec.rowExpSum
  have e : ∀ k : Fin 64, idx_main_call0_v7 (ix1 r) k = ix2 r k := fun k => funext fun a => Fin.ext (by match a with | ⟨0, _⟩ => rfl | ⟨1, _⟩ => rfl)
  simp only [e, c6_apply, Ideal.ofBits_def, Ideal.ofBits_zero_f32, zero_add]

/-- Entry `(r, c)` of the reference's first result is the log-softmax of row `r` of the logits at `c`. -/
theorem logSoftmax_apply (r : Fin 10000) (c : Fin 64) :
    val_main_v12 (F := Ideal) x0 x1 x2 x3 x4 x5 (ix2 r c) = Cert.Spec.rowLogSoftmax (Cert.Spec.logitsRow x0 x1 x2 (fun k => x3 (ix1 k)) x4 (fun k => x5 (ix1 k)) r) c := by
  rw [val_main_v12_apply, val_main_call0_v10_apply, val_main_call0_v9_apply, val_main_call0_v8_apply, c5_apply]
  have e : idx_main_call0_v8 (idx_main_call0_v10 (ix2 r c)) = ix1 r := funext fun a => Fin.ext (by match a with | ⟨0, _⟩ => rfl)
  rw [e, c7_apply]
  rfl

/-! ## The two results as arrays -/

/-- The reference's first result is the specification's log-softmax array. -/
theorem logSoftmax_eq :
    val_main_v12 (F := Ideal) x0 x1 x2 x3 x4 x5 = Cert.Spec.logSoftmaxArr x0 x1 x2 (fun k => x3 (ix1 k)) x4 (fun k => x5 (ix1 k)) := by
  funext j
  obtain ⟨r, c, rfl⟩ : ∃ (r : Fin 10000) (c : Fin 64), j = ix2 r c := ⟨j 0, j 1, eq_ix2 j⟩
  exact logSoftmax_apply x0 x1 x2 x3 x4 x5 r c

/-- The reference's second result is the specification's softmax array. -/
theorem softmax_eq :
    val_main_v23 (F := Ideal) x0 x1 x2 x3 x4 x5 = Cert.Spec.softmaxArr x0 x1 x2 (fun k => x3 (ix1 k)) x4 (fun k => x5 (ix1 k)) := by
  funext j
  obtain ⟨r, c, rfl⟩ : ∃ (r : Fin 10000) (c : Fin 64), j = ix2 r c := ⟨j 0, j 1, eq_ix2 j⟩
  exact softmax_apply x0 x1 x2 x3 x4 x5 r c

end Cert.ReferenceIdeal.RefSpec

end
-- ==== Proof.lean ====
/- The proof of `Cert.Claim` for a two-layer graph convolution on 10000 nodes.

   The kernel walks a grid of fifty points. Point 0 computes the first support `s1 = x · W1` into a scratch it keeps;
   points 0–24 each compute one block of 400 rows of the second support `s2 = max (adj · s1 + b1) 0 · W2` into rows
   `400 t … 400 t + 399` of a second scratch; points 25–49 each compute one block of 400 rows of the logits
   `adj · s2 + b2` from the whole second scratch and store the block's log-softmax and softmax (through the row
   maximum) into the two results. The reference computes the same quantities on whole arrays.

   Over the extended reals a change of float format is the identity, a matrix product is a plain sum over the
   contracted axis, and every row of every intermediate depends on that row of `adj` only; so the 25 + 25 blocks, in the
   order the grid visits them, compute exactly the rows of the reference's arrays (Proof/Spec.lean states them row by
   row; Proof/ReferenceIsSpec.lean reads the reference, Proof/KernelIdeal/PayloadValues.lean the kernel's arithmetic,
   Proof/KernelIdeal/Supports.lean and Results.lean the scratches and the result arrays). No law of arithmetic beyond
   re-indexing is used, and the precondition is never opened.

   The three frames: both kernel programs by the body's run at every point, with the invariant that the first
   scratch holds `s1` from point 1 on and the second is filled to row `400 t` before point `t`
   (Proof/Kernel*/Carried.lean, Obligation.lean); the reference by its run. The idealization rewrote nothing, so
   `preserves` is trivial. -/
import proofs.«106749_g48206712930318_cont_8to1_c_213_4_alg».proof.Defs
import proofs.«106749_g48206712930318_cont_8to1_c_213_4_alg».proof.Proof.Gen.Kernel
import proofs.«106749_g48206712930318_cont_8to1_c_213_4_alg».proof.Proof.Gen.KernelIdeal
import proofs.«106749_g48206712930318_cont_8to1_c_213_4_alg».proof.Proof.Gen.ReferenceIdeal
import proofs.«106749_g48206712930318_cont_8to1_c_213_4_alg».proof.Proof.Gen.Pre_finite_inputs
import proofs.«106749_g48206712930318_cont_8to1_c_213_4_alg».proof.Proof.Kernel.Obligation
import proofs.«106749_g48206712930318_cont_8to1_c_213_4_alg».proof.Proof.KernelIdeal.Obligation
import proofs.«106749_g48206712930318_cont_8to1_c_213_4_alg».proof.Proof.KernelIdeal.Results
import proofs.«106749_g48206712930318_cont_8to1_c_213_4_alg».proof.Proof.ReferenceRun
import proofs.«106749_g48206712930318_cont_8to1_c_213_4_alg».proof.Proof.ReferenceRead
import proofs.«106749_g48206712930318_cont_8to1_c_213_4_alg».proof.Proof.ReferenceIsSpec
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel [Cert.Kernel.Facts] [Cert.Pre_finite_inputs.Facts] : Cert.frame_Kernel :=
  fun m ρ _ => Cert.Kernel.Body.frame m ρ

/-- So does its idealization. -/
theorem frame_kernelIdeal [Cert.KernelIdeal.Facts] [Cert.Pre_finite_inputs.Facts] : Cert.frame_KernelIdeal :=
  fun m ρ _ => Cert.KernelIdeal.Body.frame m ρ

/-- The reference is a straight line of host operations: its run, with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.ValueP.run (F := Ideal) m ρ)

/-- Both programs end with the row-wise log-softmax and softmax of the same logits of the same arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Body.logSoftmaxOf m c, fun c => Cert.KernelIdeal.Body.softmaxOf m c,
    Cert.KernelIdeal.Body.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v12_eq, Cert.ReferenceIdeal.RefSpec.logSoftmax_eq,
      (hagree c).1, (hagree c).2.1, (hagree c).2.2.1, (hagree c).2.2.2.1, (hagree c).2.2.2.2.1, (hagree c).2.2.2.2.2]
    rfl
  · rw [Cert.ReferenceIdeal.ReadP.val_main_v23_eq, Cert.ReferenceIdeal.RefSpec.softmax_eq,
      (hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    @frame_kernel Cert.Kernel.Gen.facts Cert.Pre_finite_inputs.Gen.facts,
    @frame_kernelIdeal Cert.KernelIdeal.Gen.facts Cert.Pre_finite_inputs.Gen.facts,
    @frame_reference Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
